-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S100000 : Shape := ⟨1, ![100000]⟩
abbrev S3x32 : Shape := ⟨2, ![3, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x10 : Shape := ⟨2, ![64, 10]⟩
abbrev S10 : Shape := ⟨1, ![10]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S128x64 .f32) (main_arg10 : FVec F S64 .f32) (main_arg11 : FVec F S64x10 .f32) (main_arg12 : FVec F S10 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x10 .f32 := Host.absf main_arg11
  let main_cst_16 : FVec F S_ .f32 := constant S_ .f32 0x7F800000#32
  let main_v45 : FVec F S64x10 .f32 := broadcastInDim S64x10 ![] bcast_S_S64x10 main_cst_16
  let main_v46 : IVec S64x10 1 := cmpf .olt main_v44 main_v45
  let main_c_17 : IVec S_ 1 := constantI S_ 1 1#1
  let main_v47 : IVec S_ 1 := (fun x v => Host.reduce IntOp.andi x v reducesTo_S64x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S64 .f32) (main_arg7 : FVec F S64x128 .f32) (main_arg8 : FVec F S128 .f32) (main_arg9 : FVec F S128x64 .f32) (main_arg10 : FVec F S64 .f32) (main_arg11 : FVec F S64x10 .f32) (main_arg12 : FVec F S10 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x3 .f32) (main_arg1 : IVec S2x1600000 32) (main_arg2 : IVec S100000 32) (main_arg3 : FVec F S3x32 .f32) (main_arg4 : FVec F S32 .f32) (main_arg5 : FVec F S32x64 .f32) (main_arg6 : FVec F S64 .f32) (main_arg7 : FVec F S64x128 .f32) (main_arg8 : FVec F S128 .f32) (main_arg9 : FVec F S128x64 .f32) (main_arg10 : FVec F S64 .f32) (main_arg11 : FVec F S64x10 .f32) (main_arg12 : FVec F S10 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x32 .f32 := Host.absf main_arg3
  let main_cst_0 : FVec F S_ .f32 := constant S_ .f32 0x7F800000#32
  let main_v5 : FVec F S3x32 .f32 := broadcastInDim S3x32 ![] bcast_S_S3x32 main_cst_0
  let main_v6 : IVec S3x32 1 := cmpf .olt main_v4 main_v5
  let main_c_1 : IVec S_ 1 := constantI S_ 1 1#1
  let main_v7 : IVec S_ 1 := (fun x v => Host.reduce IntOp.andi x v reducesTo_S3x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg5
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg6 main_arg7 main_arg8 main_arg9 main_arg10 main_arg11 main_arg12 main_v13 main_v16
-- ==== Kernel.lean ====
abbrev S100000x3 : Shape := ⟨2, ![100000, 3]⟩
abbrev S2x1600000 : Shape := ⟨2, ![2, 1600000]⟩
abbrev S100000 : Shape := ⟨1, ![100000]⟩
abbrev S3x32 : Shape := ⟨2, ![3, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x32 : Shape := ⟨2, ![100000, 32]⟩
abbrev S5000x3 : Shape := ⟨2, ![5000, 3]⟩
abbrev S5000x1 : Shape := ⟨2, ![5000, 1]⟩
abbrev S5000x32 : Shape := ⟨2, ![5000, 32]⟩
abbrev S1700000x32 : Shape := ⟨2, ![1700000, 32]⟩
abbrev S1x32 : Shape := ⟨2, ![1, 32]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S100000x128 : Shape := ⟨2, ![100000, 128]⟩
abbrev S5000x128 : Shape := ⟨2, ![5000, 128]⟩
abbrev S1700000x128 : Shape := ⟨2, ![1700000, 128]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S1x10 : Shape := ⟨2, ![1, 10]⟩
abbrev S256x10 : Shape := ⟨2, ![256, 10]⟩
abbrev S256x64 : Shape := ⟨2, ![256, 64]⟩

abbrev nBuf : Space → Nat
  | .hbm => 100
  | .vmem => 36
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S100000, .i32⟩
  | .hbm, ⟨3, _⟩ => ⟨S3x32, .f32⟩
  | .hbm, ⟨4, _⟩ => ⟨S32, .f32⟩
  | .hbm, ⟨5, _⟩ => ⟨S32x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64x10, .f32⟩
  | .hbm, ⟨12, _⟩ => ⟨S10, .f32⟩
  | .hbm, ⟨13, _⟩ => ⟨S100000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S_, .f32⟩
  | .hbm, ⟨21, _⟩ => ⟨S1700000, .f32⟩
  | .hbm, ⟨22, _⟩ => ⟨S_, .f32⟩
  | .hbm, ⟨23, _⟩ => ⟨S100000, .f32⟩
  | .hbm, ⟨24, _⟩ => ⟨S1700000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x32, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000x32, .f32⟩
  | .hbm, ⟨45, _⟩ => ⟨S_, .f32⟩
  | .hbm, ⟨46, _⟩ => ⟨S100000x32, .f32⟩
  | .hbm, ⟨47, _⟩ => ⟨S1700000x1, .i32⟩
  | .hbm, ⟨48, _⟩ => ⟨S100000x32, .f32⟩
  | .hbm, ⟨49, _⟩ => ⟨S1x32, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x128, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x128, .f32⟩
  | .hbm, ⟨75, _⟩ => ⟨S_, .f32⟩
  | .hbm, ⟨76, _⟩ => ⟨S100000x128, .f32⟩
  | .hbm, ⟨77, _⟩ => ⟨S1700000x1, .i32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S_, .f32⟩
  | .hbm, ⟨82, _⟩ => ⟨S256x128, .f32⟩
  | .hbm, ⟨83, _⟩ => ⟨S100000x1, .i32⟩
  | .hbm, ⟨84, _⟩ => ⟨S256x128, .f32⟩
  | .hbm, ⟨85, _⟩ => ⟨S_, .f32⟩
  | .hbm, ⟨86, _⟩ => ⟨S100000, .f32⟩
  | .hbm, ⟨87, _⟩ => ⟨S_, .f32⟩
  | .hbm, ⟨88, _⟩ => ⟨S256, .f32⟩
  | .hbm, ⟨89, _⟩ => ⟨S100000x1, .i32⟩
  | .hbm, ⟨90, _⟩ => ⟨S256, .f32⟩
  | .hbm, ⟨91, _⟩ => ⟨S_, .f32⟩
  | .hbm, ⟨92, _⟩ => ⟨S256, .f32⟩
  | .hbm, ⟨93, _⟩ => ⟨S256, .f32⟩
  | .hbm, ⟨94, _⟩ => ⟨S256x1, .f32⟩
  | .hbm, ⟨95, _⟩ => ⟨S256x128, .f32⟩
  | .hbm, ⟨96, _⟩ => ⟨S256x128, .f32⟩
  | .hbm, ⟨97, _⟩ => ⟨S1x64, .f32⟩
  | .hbm, ⟨98, _⟩ => ⟨S1x10, .f32⟩
  | .hbm, ⟨99, _⟩ => ⟨S256x10, .f32⟩
  | .local _ .vmem, ⟨0, _⟩ => ⟨S5000x3, .f32⟩
  | .local _ .vmem, ⟨1, _⟩ => ⟨S5000x3, .f32⟩
  | .local _ .vmem, ⟨2, _⟩ => ⟨S3x32, .f32⟩
  | .local _ .vmem, ⟨3, _⟩ => ⟨S5000x1, .f32⟩
  | .local _ .vmem, ⟨4, _⟩ => ⟨S5000x1, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x1, .f32⟩
  | .local _ .vmem, ⟨10, _⟩ => ⟨S5000x1, .f32⟩
  | .local _ .vmem, ⟨11, _⟩ => ⟨S1x32, .f32⟩
  | .local _ .vmem, ⟨12, _⟩ => ⟨S32x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S64x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S256x128, .f32⟩
  | .local _ .vmem, ⟨31, _⟩ => ⟨S128x64, .f32⟩
  | .local _ .vmem, ⟨32, _⟩ => ⟨S1x64, .f32⟩
  | .local _ .vmem, ⟨33, _⟩ => ⟨S64x10, .f32⟩
  | .local _ .vmem, ⟨34, _⟩ => ⟨S1x10, .f32⟩
  | .local _ .vmem, ⟨35, _⟩ => ⟨S256x10, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_8 : Ref sig .tc := ⟨.hbm, 66, rfl⟩
abbrev main_v41 : Ref sig .tc := ⟨.hbm, 67, rfl⟩
abbrev main_v42 : Ref sig .tc := ⟨.hbm, 68, rfl⟩
abbrev main_c_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_v56 : Ref sig .tc := ⟨.hbm, 86, rfl⟩
abbrev main_cst_13 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_14 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem1_0 : DmaSem sig := 31
abbrev cc4_sem2_0 : DmaSem sig := 32
abbrev cc4_sem3_0 : DmaSem sig := 33
abbrev cc4_sem4_0 : DmaSem sig := 34
abbrev cc4_sem5_0 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x10 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x32_S3x32_0_0 : ∀ a, (![0, 0] : Fin 2 → Nat) a + S3x32.size a ≤ S3x32.size a
  h_S3x32 : 0 < S3x32.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x64_S32x64_0_0 : ∀ a, (![0, 0] : Fin 2 → Nat) a + S32x64.size a ≤ S32x64.size a
  h_S32x64 : 0 < S32x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S256x128 : S_.BroadcastsInDim S256x128 (![] : Fin 0 → Fin S256x128.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  shapeCasts_S10_S1x10 : S10.ShapeCasts S1x10
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x64_S128x64_0_0 : ∀ a, (![0, 0] : Fin 2 → Nat) a + S128x64.size a ≤ S128x64.size a
  h_S128x64 : 0 < S128x64.numel
  broadcasts_S1x64_S256x64 : S1x64.Broadcasts S256x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  inb_S256x10_S256x10_0_0 : ∀ a, (![0, 0] : Fin 2 → Nat) a + S256x10.size a ≤ S256x10.size a
  h_S256x10 : 0 < S256x10.numel
  scatter_S100000_S1700000x1_S1700000_n_0_0_1_wf : ScatterDims.WF S100000 S1700000x1 S1700000 [] [0] [0] 1
  dot_S5000x3_S3x32_S5000x32_1_0_0_1_n_n_wf : DotDims.WF S5000x3 S3x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S5000x32_S32x64_S5000x64_1_0_0_1_n_n_wf : DotDims.WF S5000x32 S32x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x128_S5000x128_1_0_0_1_n_n_wf : DotDims.WF S5000x64 S64x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x64_S256x64_1_0_0_1_n_n_wf : DotDims.WF S256x128 S128x64 S256x64 [1] [0] [0] [1] [] []
  dot_S256x64_S64x10_S256x10_1_0_0_1_n_n_wf : DotDims.WF S256x64 S64x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x32.size a ≤ S3x32.size a
  hwx0_1 : ∀ i : grid0.Coords, EltTy.bits .f32 = 32 ∨ (Rect.block (s := S3x32) S3x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .f32 = 32 ∨ (Rect.block (s := S32x64) S32x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x128.size a ≤ S256x128.size a
  hwx4_0 : ∀ i : grid4.Coords, EltTy.bits .f32 = 32 ∨ (Rect.block (s := S256x128) S256x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x10.size a ≤ S64x10.size a
  hwx4_3 : ∀ i : grid4.Coords, EltTy.bits .f32 = 32 ∨ (Rect.block (s := S64x10) S64x10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x10.size a ≤ S1x10.size a
  hwx4_4 : ∀ i : grid4.Coords, EltTy.bits .f32 = 32 ∨ (Rect.block (s := S1x10) S1x10.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x10.size a ≤ S256x10.size a
  hwx4_5 : ∀ i : grid4.Coords, EltTy.bits .f32 = 32 ∨ (Rect.block (s := S256x10) S256x10.size (cc4_transform_5 i) (hinb4_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x3_S3x32_S5000x32_1_0_0_1_n_n : DotDims S5000x3 S3x32 S5000x32 where
  lhsContracting := [1]
  rhsContracting := [0]
  lhsNonContracting := [0]
  rhsNonContracting := [1]
  lhsBatch := []
  rhsBatch := []
  wf := dot_S5000x3_S3x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v50) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v64) S256x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S64x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v66) S1x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v67) S256x10.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S100000 : Shape := ⟨1, ![100000]⟩
abbrev S3x32 : Shape := ⟨2, ![3, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S1700000x32 : Shape := ⟨2, ![1700000, 32]⟩
abbrev S1x32 : Shape := ⟨2, ![1, 32]⟩
abbrev S100000x64 : Shape := ⟨2, ![100000, 64]⟩
abbrev S1700000x64 : Shape := ⟨2, ![1700000, 64]⟩
abbrev S1x64 : Shape := ⟨2, ![1, 64]⟩
abbrev S100000x128 : Shape := ⟨2, ![100000, 128]⟩
abbrev S1700000x128 : Shape := ⟨2, ![1700000, 128]⟩
abbrev S1x128 : Shape := ⟨2, ![1, 128]⟩
abbrev S256x128 : Shape := ⟨2, ![256, 128]⟩
abbrev S100000x1 : Shape := ⟨2, ![100000, 1]⟩
abbrev S256 : Shape := ⟨1, ![256]⟩
abbrev S256x1 : Shape := ⟨2, ![256, 1]⟩
abbrev S256x64 : Shape := ⟨2, ![256, 64]⟩
abbrev S256x10 : Shape := ⟨2, ![256, 10]⟩
abbrev S1x10 : Shape := ⟨2, ![1, 10]⟩

abbrev nBuf : Space → Nat
  | .hbm => 147
  | .vmem => 0
  | .smem => 0
  | _ => 0

abbrev hbmTy0_0 (i : Nat) : BufTy := match i % 128 with
  | 0 => ⟨S100000x3, .f32⟩
  | 1 => ⟨S2x1600000, .i32⟩
  | 2 => ⟨S100000, .i32⟩
  | 3 => ⟨S3x32, .f32⟩
  | 4 => ⟨S32, .f32⟩
  | 5 => ⟨S32x64, .f32⟩
  | 6 => ⟨S64, .f32⟩
  | 7 => ⟨S64x128, .f32⟩
  | 8 => ⟨S128, .f32⟩
  | 9 => ⟨S128x64, .f32⟩
  | 10 => ⟨S64, .f32⟩
  | 11 => ⟨S64x10, .f32⟩
  | 12 => ⟨S10, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S1700000x1, .f32⟩
  | 54 => ⟨S100000x32, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x32, .f32⟩
  | 64 => ⟨S1700000x32, .f32⟩
  | 65 => ⟨S1700000x32, .f32⟩
  | 66 => ⟨S_, .f32⟩
  | 67 => ⟨S100000x32, .f32⟩
  | 68 => ⟨S1700000x1, .i32⟩
  | 69 => ⟨S100000x32, .f32⟩
  | 70 => ⟨S1x32, .f32⟩
  | 71 => ⟨S100000x32, .f32⟩
  | 72 => ⟨S100000x32, .f32⟩
  | 73 => ⟨S_, .f32⟩
  | 74 => ⟨S100000x32, .f32⟩
  | 75 => ⟨S100000x32, .f32⟩
  | 76 => ⟨S100000x64, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000x64, .f32⟩
  | 86 => ⟨S1700000x64, .f32⟩
  | 87 => ⟨S1700000x64, .f32⟩
  | 88 => ⟨S_, .f32⟩
  | 89 => ⟨S100000x64, .f32⟩
  | 90 => ⟨S1700000x1, .i32⟩
  | 91 => ⟨S100000x64, .f32⟩
  | 92 => ⟨S1x64, .f32⟩
  | 93 => ⟨S100000x64, .f32⟩
  | 94 => ⟨S100000x64, .f32⟩
  | 95 => ⟨S_, .f32⟩
  | 96 => ⟨S100000x64, .f32⟩
  | 97 => ⟨S100000x64, .f32⟩
  | 98 => ⟨S100000x128, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000x128, .f32⟩
  | 108 => ⟨S1700000x128, .f32⟩
  | 109 => ⟨S1700000x128, .f32⟩
  | 110 => ⟨S_, .f32⟩
  | 111 => ⟨S100000x128, .f32⟩
  | 112 => ⟨S1700000x1, .i32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S_, .f32⟩
  | 121 => ⟨S256x128, .f32⟩
  | 122 => ⟨S100000x1, .i32⟩
  | 123 => ⟨S256x128, .f32⟩
  | 124 => ⟨S_, .f32⟩
  | 125 => ⟨S100000, .f32⟩
  | 126 => ⟨S_, .f32⟩
  | 127 => ⟨S256, .f32⟩
  | _ => ⟨S100000x3, .f32⟩

abbrev hbmTy0_1 (i : Nat) : BufTy := match i % 128 with
  | 0 => ⟨S100000x1, .i32⟩
  | 1 => ⟨S256, .f32⟩
  | 2 => ⟨S_, .f32⟩
  | 3 => ⟨S256, .f32⟩
  | 4 => ⟨S256, .f32⟩
  | 5 => ⟨S256x1, .f32⟩
  | 6 => ⟨S256x128, .f32⟩
  | 7 => ⟨S256x128, .f32⟩
  | 8 => ⟨S256x64, .f32⟩
  | 9 => ⟨S1x64, .f32⟩
  | 10 => ⟨S256x64, .f32⟩
  | 11 => ⟨S256x64, .f32⟩
  | 12 => ⟨S_, .f32⟩
  | 13 => ⟨S256x64, .f32⟩
  | 14 => ⟨S256x64, .f32⟩
  | 15 => ⟨S256x10, .f32⟩
  | 16 => ⟨S1x10, .f32⟩
  | 17 => ⟨S256x10, .f32⟩
  | 18 => ⟨S256x10, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_call2_cst : Ref sig .tc := ⟨.hbm, 95, rfl⟩
abbrev main_call2_v0 : Ref sig .tc := ⟨.hbm, 96, rfl⟩
abbrev main_v64 : Ref sig .tc := ⟨.hbm, 97, rfl⟩
abbrev main_v65 : Ref sig .tc := ⟨.hbm, 98, rfl⟩
abbrev main_c_12 : Ref sig .tc := ⟨.hbm, 99, rfl⟩
abbrev main_v66 : Ref sig .tc := ⟨.hbm, 100, rfl⟩
abbrev main_v67 : Ref sig .tc := ⟨.hbm, 101, rfl⟩
abbrev main_c_13 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_14 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_call3_cst : Ref sig .tc := ⟨.hbm, 117, rfl⟩
abbrev main_call3_v0 : Ref sig .tc := ⟨.hbm, 118, rfl⟩
abbrev main_v81 : Ref sig .tc := ⟨.hbm, 119, rfl⟩
abbrev main_cst_15 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_16 : Ref sig .tc := ⟨.hbm, 124, rfl⟩
abbrev main_v85 : Ref sig .tc := ⟨.hbm, 125, rfl⟩
abbrev main_cst_17 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_18 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_call4_cst : Ref sig .tc := ⟨.hbm, 140, rfl⟩
abbrev main_call4_v0 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S256x128 : S_.BroadcastsInDim S256x128 (![] : Fin 0 → Fin S256x128.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1x64_S256x64_0_1 : S1x64.BroadcastsInDim S256x64 (![0, 1] : Fin 2 → Fin S256x64.rank)
  bcast_S_S256x64 : S_.BroadcastsInDim S256x64 (![] : Fin 0 → Fin S256x64.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x3_S3x32_S100000x32_1_0_0_1_n_n_wf : DotDims.WF S100000x3 S3x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x64_S100000x64_1_0_0_1_n_n_wf : DotDims.WF S100000x32 S32x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x64_S256x64_1_0_0_1_n_n_wf : DotDims.WF S256x128 S128x64 S256x64 [1] [0] [0] [1] [] []
  dot_S256x64_S64x10_S256x10_1_0_0_1_n_n_wf : DotDims.WF S256x64 S64x10 S256x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x3_S3x32_S100000x32_1_0_0_1_n_n : DotDims S100000x3 S3x32 S100000x32 where
  lhsContracting := [1]
  rhsContracting := [0]
  lhsNonContracting := [0]
  rhsNonContracting := [1]
  lhsBatch := []
  rhsBatch := []
  wf := dot_S100000x3_S3x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

class Facts : Prop extends Facts₀ where

variable [Facts]
-- ==== Proof.KernelRun.lean ====
/-
  The idealized kernel program's run with its result named.  The program is five kernel regions among stretches of
  host operations; every weakly fair execution terminates, nothing faults, the argument arrays end as launched, and
  the result array ends at the last boundary's contents: the fold, through the host stretches and the regions'
  write-backs, of the launch memory.
-/
import proofs.«147315_j51419348468094_2_alg».proof.Proof.Gen.KernelIdeal.Frame

set_option maxRecDepth 16384

noncomputable section

namespace Cert.GcnValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result array at the last
    boundary's contents and every argument array as launched. -/
theorem kernel_run : θ_run defs (onTc (τ := τ) (main (F := F))) ⟨m, fun _ => 0, ρ⟩ (fun r => ∀ c : Dev nD,
      r.2.mem ((c.tc : Thread nD τ).loc main_v67) = W12 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v67 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.GcnValue

end
-- ==== Proof.KernelChain.lean ====
/-
  The contents of the idealized kernel program's buffers at the boundaries between its host stretches and its five
  kernel regions, as functions of the launch memory.  A buffer that no operation of a stretch writes, and that is not
  an output window of a region, keeps its contents across it; an input window's array is left as the region found it.
  The edge index arrays (sources, targets), the wrapped source indices and the degree normaliser are computed once,
  before the first region, by the same host operations the reference program applies: they are named here by the
  reference's own stage functions of the edge-index argument.  Each region's entry contents are then: the previous
  region's output array gathered along the wrapped sources and scatter-added along the targets, the normaliser as a
  column, the bias as a row, and the weight matrix.
-/
import proofs.«147315_j51419348468094_2_alg».proof.Proof.Gen.KernelIdeal.Frame
import proofs.«147315_j51419348468094_2_alg».proof.Proof.RefReadP

set_option maxRecDepth 16384

noncomputable section

namespace Cert.GcnValue

open Cert.KernelIdeal Cert.KernelIdeal.Gen
open Idealize.ShloMosaic Idealize.ShloMosaic.TcCoe Idealize.ShloMosaic.Tactic Idealize.ShloMosaic.StableHlo
open Idealize.SL.Sem

variable {F : FTy → Type} [FloatOps F]
variable (m : (ℓ : Loc nD τ sig) → Buf (Elt F) ℓ) (ρ : Dev nD → PrngReg)

/-! ## Before the first region: the edge arrays and the normaliser -/

set_option maxHeartbeats 4000000 in
/-- The source index of every edge, self-loops appended. -/
theorem W1_v3 (c : Dev nD) : W1 m ρ c (Proc.devRef .tc main_v3) = Cert.ReferenceIdeal.ReadP.val_main_v3 (F := F) (m ((c : Thread nD τ).loc main_arg1)) := by
  show StableHlo.after hostOps0 (W0 m ρ c) (Proc.devRef .tc main_v3) = _
  after_results_simp
  rfl

set_option maxHeartbeats 4000000 in
/-- The target index of every edge, self-loops appended. -/
theorem W1_v6 (c : Dev nD) : W1 m ρ c (Proc.devRef .tc main_v6) = Cert.ReferenceIdeal.ReadP.val_main_v6 (F := F) (m ((c : Thread nD τ).loc main_arg1)) := by
  show StableHlo.after hostOps0 (W0 m ρ c) (Proc.devRef .tc main_v6) = _
  after_results_simp
  rfl

set_option maxHeartbeats 4000000 in
/-- The degree normaliser: the guarded reciprocal square root of the in-degree. -/
theorem W2_v14 (c : Dev nD) : W2 m ρ c (Proc.devRef .tc main_v14) = Cert.ReferenceIdeal.ReadP.val_main_v14 (F := F) (m ((c : Thread nD τ).loc main_arg1)) := by
  show StableHlo.after hostOps0_1 (StableHlo.after hostOps0 (W0 m ρ c)) (Proc.devRef .tc main_v14) = _
  after_results_simp
  rfl

/-- The normaliser as a column. -/
theorem W3_v15 (c : Dev nD) : W3 m ρ c (Proc.devRef .tc main_v15)
    = shapeCast S100000x1 (Cert.ReferenceIdeal.ReadP.val_main_v14 (F := F) (m ((c : Thread nD τ).loc main_arg1))) shapeCasts_S100000_S100000x1 := by
  have key : ∀ Wx : Valuation τ sig (Elt F), StableHlo.after hostOps0_2 Wx (Proc.devRef .tc main_v15)
      = shapeCast S100000x1 (Wx (Proc.devRef .tc main_v14)) shapeCasts_S100000_S100000x1 := by
    intro Wx
    after_results
    rfl
  rw [show W3 m ρ c = StableHlo.after hostOps0_2 (W2 m ρ c) from rfl, key, W2_v14]

/-! ## What is carried across stretches and regions unchanged -/

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_forall_not_mem (b := Proc.devRef .tc main_arg5) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W7_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_forall_not_mem (b := Proc.devRef .tc main_arg7) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W8_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W10_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W10_arg10 (c : Dev nD) : W10 m ρ c (Proc.devRef .tc main_arg10) = m ((c : Thread nD τ).loc main_arg10) :=
  calc W10 m ρ c (Proc.devRef .tc main_arg10)
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W10_arg12 (c : Dev nD) : W10 m ρ c (Proc.devRef .tc main_arg12) = m ((c : Thread nD τ).loc main_arg12) :=
  calc W10 m ρ c (Proc.devRef .tc main_arg12)
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := StableHlo.after_of_forall_not_mem (b := Proc.devRef .tc main_arg12) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg12) := StableHlo.after_of_forall_not_mem (b := Proc.devRef .tc main_arg12) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W11_arg9 (c : Dev nD) : W11 m ρ c (Proc.devRef .tc main_arg9) = m ((c : Thread nD τ).loc main_arg9) :=
  calc W11 m ρ c (Proc.devRef .tc main_arg9)
    _ = W10 m ρ c (Proc.devRef .tc main_arg9) := StableHlo.after_of_forall_not_mem (b := Proc.devRef .tc main_arg9) _ _ (List.forall_iff_forall_mem.mp (by
          simp only [hostOps4, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W11_arg11 (c : Dev nD) : W11 m ρ c (Proc.devRef .tc main_arg11) = m ((c : Thread nD τ).loc main_arg11) :=
  calc W11 m ρ c (Proc.devRef .tc main_arg11)
    _ = W10 m ρ c (Proc.devRef .tc main_arg11) := StableHlo.after_of_forall_not_mem (b := Proc.devRef .tc main_arg11) _ _ (List.forall_iff_forall_mem.mp (by
          simp only [hostOps4, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := StableHlo.after_of_forall_not_mem (b := Proc.devRef .tc main_arg11) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := StableHlo.after_of_forall_not_mem (b := Proc.devRef .tc main_arg11) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W4_v3_carry (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := Proc.devRef .tc main_v3) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W4_v6_carry (c : Dev nD) : W4 m ρ c (Proc.devRef .tc main_v6) = W1 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := StableHlo.after_of_forall_not_mem (b := Proc.devRef .tc main_v6) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W6_v3_carry (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := Proc.devRef .tc main_v3) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W6_v6_carry (c : Dev nD) : W6 m ρ c (Proc.devRef .tc main_v6) = W1 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := StableHlo.after_of_forall_not_mem (b := Proc.devRef .tc main_v6) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W8_v3_carry (c : Dev nD) : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := Proc.devRef .tc main_v3) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W8_v6_carry (c : Dev nD) : W8 m ρ c (Proc.devRef .tc main_v6) = W1 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := StableHlo.after_of_forall_not_mem (b := Proc.devRef .tc main_v6) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W5_v15_carry (c : Dev nD) : W5 m ρ c (Proc.devRef .tc main_v15) = W3 m ρ c (Proc.devRef .tc main_v15) :=
  calc W5 m ρ c (Proc.devRef .tc main_v15)
    _ = W4 m ρ c (Proc.devRef .tc main_v15) := StableHlo.after_of_forall_not_mem (b := Proc.devRef .tc main_v15) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v15) := (W4_arr m ρ c 2).trans (((dat0 (V3 m ρ) c).arrAt_in 2 rfl _).trans (A_eq0 (V3 m ρ) c 2))

theorem W7_v15_carry (c : Dev nD) : W7 m ρ c (Proc.devRef .tc main_v15) = W3 m ρ c (Proc.devRef .tc main_v15) :=
  calc W7 m ρ c (Proc.devRef .tc main_v15)
    _ = W6 m ρ c (Proc.devRef .tc main_v15) := StableHlo.after_of_forall_not_mem (b := Proc.devRef .tc main_v15) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v15) := (W6_arr m ρ c 1).trans (((dat1 (V5 m ρ) c).arrAt_in 1 rfl _).trans (A_eq1 (V5 m ρ) c 1))
    _ = W4 m ρ c (Proc.devRef .tc main_v15) := StableHlo.after_of_forall_not_mem (b := Proc.devRef .tc main_v15) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v15) := (W4_arr m ρ c 2).trans (((dat0 (V3 m ρ) c).arrAt_in 2 rfl _).trans (A_eq0 (V3 m ρ) c 2))

theorem W9_v15_carry (c : Dev nD) : W9 m ρ c (Proc.devRef .tc main_v15) = W3 m ρ c (Proc.devRef .tc main_v15) :=
  calc W9 m ρ c (Proc.devRef .tc main_v15)
    _ = W8 m ρ c (Proc.devRef .tc main_v15) := StableHlo.after_of_forall_not_mem (b := Proc.devRef .tc main_v15) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v15) := (W8_arr m ρ c 1).trans (((dat2 (V7 m ρ) c).arrAt_in 1 rfl _).trans (A_eq2 (V7 m ρ) c 1))
    _ = W6 m ρ c (Proc.devRef .tc main_v15) := StableHlo.after_of_forall_not_mem (b := Proc.devRef .tc main_v15) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v15) := (W6_arr m ρ c 1).trans (((dat1 (V5 m ρ) c).arrAt_in 1 rfl _).trans (A_eq1 (V5 m ρ) c 1))
    _ = W4 m ρ c (Proc.devRef .tc main_v15) := StableHlo.after_of_forall_not_mem (b := Proc.devRef .tc main_v15) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v15) := (W4_arr m ρ c 2).trans (((dat0 (V3 m ρ) c).arrAt_in 2 rfl _).trans (A_eq0 (V3 m ρ) c 2))

/-! ## The entry contents of each region -/

theorem W5_v15 (c : Dev nD) : W5 m ρ c (Proc.devRef .tc main_v15) = shapeCast S100000x1 (Cert.ReferenceIdeal.ReadP.val_main_v14 (F := F) (m ((c : Thread nD τ).loc main_arg1))) shapeCasts_S100000_S100000x1 := (W5_v15_carry m ρ c).trans (W3_v15 m ρ c)
theorem W7_v15 (c : Dev nD) : W7 m ρ c (Proc.devRef .tc main_v15) = shapeCast S100000x1 (Cert.ReferenceIdeal.ReadP.val_main_v14 (F := F) (m ((c : Thread nD τ).loc main_arg1))) shapeCasts_S100000_S100000x1 := (W7_v15_carry m ρ c).trans (W3_v15 m ρ c)
theorem W9_v15 (c : Dev nD) : W9 m ρ c (Proc.devRef .tc main_v15) = shapeCast S100000x1 (Cert.ReferenceIdeal.ReadP.val_main_v14 (F := F) (m ((c : Thread nD τ).loc main_arg1))) shapeCasts_S100000_S100000x1 := (W9_v15_carry m ρ c).trans (W3_v15 m ρ c)

set_option maxHeartbeats 4000000 in
/-- The previous region's output rows gathered along the wrapped sources and scatter-added along the targets. -/
theorem W5_v26 (c : Dev nD) (H : Buf (Elt F) ((c : Thread nD τ).loc main_v16)) (hH : W4 m ρ c (Proc.devRef .tc main_v16) = H) :
    W5 m ρ c (Proc.devRef .tc main_v26) = Host.scatterAdd Cert.ReferenceIdeal.scatter_S100000x32_S1700000x1_S1700000x32_1_0_0_1 (Cert.ReferenceIdeal.ReadP.val_main_v41 (F := F)) (Cert.ReferenceIdeal.ReadP.val_main_v42 (F := F) (m ((c : Thread nD τ).loc main_arg1)))
        (Host.gather Cert.ReferenceIdeal.gather_S100000x32_S1700000x1_S1700000x32_1_0_n_n_0_1_132 H (Cert.ReferenceIdeal.ReadP.val_main_v37 (F := F) (m ((c : Thread nD τ).loc main_arg1)))) := by
  show StableHlo.after hostOps1 (W4 m ρ c) (Proc.devRef .tc main_v26) = _
  after_results_simp
  rw [W4_v3_carry, W4_v6_carry, W1_v3, W1_v6, hH]
  rfl

set_option maxHeartbeats 4000000 in
/-- The bias as a row. -/
theorem W5_v27 (c : Dev nD) :
    W5 m ρ c (Proc.devRef .tc main_v27) = shapeCast S1x32 (m ((c : Thread nD τ).loc main_arg4)) shapeCasts_S32_S1x32 := by
  show StableHlo.after hostOps1 (W4 m ρ c) (Proc.devRef .tc main_v27) = _
  after_results_simp
  rw [W4_arg4]
  rfl

set_option maxHeartbeats 4000000 in
/-- The previous region's output rows gathered along the wrapped sources and scatter-added along the targets. -/
theorem W7_v38 (c : Dev nD) (H : Buf (Elt F) ((c : Thread nD τ).loc main_v28)) (hH : W6 m ρ c (Proc.devRef .tc main_v28) = H) :
    W7 m ρ c (Proc.devRef .tc main_v38) = Host.scatterAdd Cert.ReferenceIdeal.scatter_S100000x64_S1700000x1_S1700000x64_1_0_0_1 (Cert.ReferenceIdeal.ReadP.val_main_v58 (F := F)) (Cert.ReferenceIdeal.ReadP.val_main_v59 (F := F) (m ((c : Thread nD τ).loc main_arg1)))
        (Host.gather Cert.ReferenceIdeal.gather_S100000x64_S1700000x1_S1700000x64_1_0_n_n_0_1_164 H (Cert.ReferenceIdeal.ReadP.val_main_v54 (F := F) (m ((c : Thread nD τ).loc main_arg1)))) := by
  show StableHlo.after hostOps2 (W6 m ρ c) (Proc.devRef .tc main_v38) = _
  after_results_simp
  rw [W6_v3_carry, W6_v6_carry, W1_v3, W1_v6, hH]
  rfl

set_option maxHeartbeats 4000000 in
/-- The bias as a row. -/
theorem W7_v39 (c : Dev nD) :
    W7 m ρ c (Proc.devRef .tc main_v39) = shapeCast S1x64 (m ((c : Thread nD τ).loc main_arg6)) shapeCasts_S64_S1x64 := by
  show StableHlo.after hostOps2 (W6 m ρ c) (Proc.devRef .tc main_v39) = _
  after_results_simp
  rw [W6_arg6]
  rfl

set_option maxHeartbeats 4000000 in
/-- The previous region's output rows gathered along the wrapped sources and scatter-added along the targets. -/
theorem W9_v50 (c : Dev nD) (H : Buf (Elt F) ((c : Thread nD τ).loc main_v40)) (hH : W8 m ρ c (Proc.devRef .tc main_v40) = H) :
    W9 m ρ c (Proc.devRef .tc main_v50) = Host.scatterAdd Cert.ReferenceIdeal.scatter_S100000x128_S1700000x1_S1700000x128_1_0_0_1 (Cert.ReferenceIdeal.ReadP.val_main_v75 (F := F)) (Cert.ReferenceIdeal.ReadP.val_main_v76 (F := F) (m ((c : Thread nD τ).loc main_arg1)))
        (Host.gather Cert.ReferenceIdeal.gather_S100000x128_S1700000x1_S1700000x128_1_0_n_n_0_1_1128 H (Cert.ReferenceIdeal.ReadP.val_main_v71 (F := F) (m ((c : Thread nD τ).loc main_arg1)))) := by
  show StableHlo.after hostOps3 (W8 m ρ c) (Proc.devRef .tc main_v50) = _
  after_results_simp
  rw [W8_v3_carry, W8_v6_carry, W1_v3, W1_v6, hH]
  rfl

set_option maxHeartbeats 4000000 in
/-- The bias as a row. -/
theorem W9_v51 (c : Dev nD) :
    W9 m ρ c (Proc.devRef .tc main_v51) = shapeCast S1x128 (m ((c : Thread nD τ).loc main_arg8)) shapeCasts_S128_S1x128 := by
  show StableHlo.after hostOps3 (W8 m ρ c) (Proc.devRef .tc main_v51) = _
  after_results_simp
  rw [W8_arg8]
  rfl

set_option maxHeartbeats 4000000 in
/-- The node features summed per graph and divided by the graph's node count (at least one). -/
theorem W11_v64 (c : Dev nD) (H : Buf (Elt F) ((c : Thread nD τ).loc main_v52)) (hH : W10 m ρ c (Proc.devRef .tc main_v52) = H) :
    W11 m ρ c (Proc.devRef .tc main_v64) = Host.divf (Host.scatterAdd Cert.ReferenceIdeal.scatter_S256x128_S100000x1_S100000x128_1_0_0_1 (Cert.ReferenceIdeal.ReadP.val_main_v82 (F := F)) (Cert.ReferenceIdeal.ReadP.val_main_v83 (F := F) (m ((c : Thread nD τ).loc main_arg2))) H) (Cert.ReferenceIdeal.ReadP.val_main_v92 (F := F) (m ((c : Thread nD τ).loc main_arg2))) := by
  show StableHlo.after hostOps4 (W10 m ρ c) (Proc.devRef .tc main_v64) = _
  after_results_simp
  rw [W10_arg2, hH]
  rfl

set_option maxHeartbeats 4000000 in
/-- The first head bias as a row. -/
theorem W11_v65 (c : Dev nD) :
    W11 m ρ c (Proc.devRef .tc main_v65) = shapeCast S1x64 (m ((c : Thread nD τ).loc main_arg10)) shapeCasts_S64_S1x64 := by
  show StableHlo.after hostOps4 (W10 m ρ c) (Proc.devRef .tc main_v65) = _
  after_results_simp
  rw [W10_arg10]
  rfl

set_option maxHeartbeats 4000000 in
/-- The second head bias as a row. -/
theorem W11_v66 (c : Dev nD) :
    W11 m ρ c (Proc.devRef .tc main_v66) = shapeCast S1x10 (m ((c : Thread nD τ).loc main_arg12)) shapeCasts_S10_S1x10 := by
  show StableHlo.after hostOps4 (W10 m ρ c) (Proc.devRef .tc main_v66) = _
  after_results_simp
  rw [W10_arg12]
  rfl

end Cert.GcnValue

end
-- ==== Proof.LibLayoutColumn.lean ====
/-
  Two keepdims layout steps read at an index: a column [a, 1] broadcast along its unit axis to [a, b] reads, at
  (p, c), the column at p; a vector [a] cast to the column [a, 1] reads, at (i, 0), the vector at i.
-/
import Idealize.ShloMosaic.Lib.Pipeline.Value
import Idealize.ShloMosaic.Lib.ValueIdx

noncomputable section

namespace Cert.Lib.Layout

open Idealize.ShloMosaic Idealize.ShloMosaic.ValueIdx

variable {α : Type}

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector cast to the column [a, 1] reads, at (i, u), the vector at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib.Layout

end
-- ==== Proof.Region0.lean ====
/-
  The value of the first kernel region, at the exact (extended-real) instance.

  The region runs over 20 grid points; point t holds rows 5000 t … 5000 t + 4999 of x ([100000, 3]), of the column d
  ([100000, 1]) and of the output ([100000, 32]), and the whole of w ([3, 32]). Its body forms the matrix product of the
  block of x with w into a zero accumulator — the operands narrowed on the way in, which at this instance changes nothing, so
  the product is the plain sum over the contracted index — and scales each row by the column's entry of that row. So the
  output array ends as one function of the three arrays: entry (p, q) is (Σ_k x(p, k) · w(k, q)) · d(p, 0).

  First the payload is read at an index (pay0_apply); then each window's block is read at an index of the array
  (blk0_0 … emb0_3, from the index maps decided over the 20 points), what a point writes back is its block of that
  function (flushed0_3_eq), the blocks cover the array (cover0_3'), and so the array is that function (final0).
-/
import proofs.«147315_j51419348468094_2_alg».proof.Proof.Gen.KernelIdeal.Frame
import proofs.«147315_j51419348468094_2_alg».proof.Proof.LibLayoutColumn
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.GcnValue

open Cert.KernelIdeal Cert.KernelIdeal.Gen Idealize.ShloMosaic Idealize.ShloMosaic.ValueIdx Idealize.ShloMosaic.TcCoe
open Idealize.ShloMosaic.Pipeline (Dat)

/-- The left operand's row coordinate under the contraction is the output's row. -/
theorem lhs0_0 (i : S5000x32.Idx) (q : dot_S5000x3_S3x32_S5000x32_1_0_0_1_n_n.contr.Idx) :
    (dot_S5000x3_S3x32_S5000x32_1_0_0_1_n_n.lhsIdx i q 0).val = (i 0).val := by
  unfold DotDims.lhsIdx
  rw [dif_neg (show ¬(0 : Fin S5000x3.rank) ∈ dot_S5000x3_S3x32_S5000x32_1_0_0_1_n_n.lhsBatch by decide), dif_pos (show (0 : Fin S5000x3.rank) ∈ dot_S5000x3_S3x32_S5000x32_1_0_0_1_n_n.lhsNonContracting by decide)]
  rfl
/-- The left operand's column coordinate is the contracted index. -/
theorem lhs0_1 (i : S5000x32.Idx) (q : dot_S5000x3_S3x32_S5000x32_1_0_0_1_n_n.contr.Idx) :
    (dot_S5000x3_S3x32_S5000x32_1_0_0_1_n_n.lhsIdx i q 1).val = (q ⟨0, by decide⟩).val :=
  dot_S5000x3_S3x32_S5000x32_1_0_0_1_n_n.lhsIdx_val_of_single rfl i q
/-- The right operand's row coordinate is the contracted index. -/
theorem rhs0_0 (i : S5000x32.Idx) (q : dot_S5000x3_S3x32_S5000x32_1_0_0_1_n_n.contr.Idx) :
    (dot_S5000x3_S3x32_S5000x32_1_0_0_1_n_n.rhsIdx i q 0).val = (q ⟨0, by decide⟩).val :=
  dot_S5000x3_S3x32_S5000x32_1_0_0_1_n_n.rhsIdx_val_of_single rfl i q
/-- The right operand's column coordinate is the output's column. -/
theorem rhs0_1 (i : S5000x32.Idx) (q : dot_S5000x3_S3x32_S5000x32_1_0_0_1_n_n.contr.Idx) :
    (dot_S5000x3_S3x32_S5000x32_1_0_0_1_n_n.rhsIdx i q 1).val = (i 1).val := by
  unfold DotDims.rhsIdx
  rw [dif_neg (show ¬(1 : Fin S3x32.rank) ∈ dot_S5000x3_S3x32_S5000x32_1_0_0_1_n_n.rhsBatch by decide), dif_pos (show (1 : Fin S3x32.rank) ∈ dot_S5000x3_S3x32_S5000x32_1_0_0_1_n_n.rhsNonContracting by decide)]
  rfl

/-- The body's payload at an index: the matrix product of the (narrowed, here unchanged) operands into the zero
    accumulator is the plain sum over the contracted index; the column is broadcast along the rows' entries. -/
theorem pay0_apply (x0 : Vec Ideal S5000x3 .f32) (x1 : Vec Ideal S3x32 .f32) (x2 : Vec Ideal S5000x1 .f32) (p : Fin 5000) (q : Fin 32) :
    k0_pay1 (F := Ideal) x0 x1 x2 (ix2 p q) = (∑ k : Fin 3, x0 (ix2 p k) * x1 (ix2 k q)) * x2 (ix2 p (0 : Fin 1)) := by
  unfold k0_pay1
  show (matmul dot_S5000x3_S3x32_S5000x32_1_0_0_1_n_n none (truncf .bf16 x0 bitsLt_bf16_f32) (truncf .bf16 x1 bitsLt_bf16_f32) (constant (F := Ideal) S5000x32 .f32 0x00000000#32)) (ix2 p q) * (broadcastTo S5000x32 (shapeCast S5000x1 x2 shapeCasts_S5000x1_S5000x1) broadcasts_S5000x1_S5000x32) (ix2 p q) = _
  refine congrArg₂ (· * ·) ?_ ?_
  · refine (Ideal.matmul_constant_zero_apply dot_S5000x3_S3x32_S5000x32_1_0_0_1_n_n none _ _ _).trans ?_
    rw [← Equiv.sum_comp (contrEquiv1 dot_S5000x3_S3x32_S5000x32_1_0_0_1_n_n 3 rfl rfl).symm]
    refine Finset.sum_congr rfl fun k _ => ?_
    have hk := contrEquiv1_symm_val dot_S5000x3_S3x32_S5000x32_1_0_0_1_n_n 3 rfl rfl k
    have el : dot_S5000x3_S3x32_S5000x32_1_0_0_1_n_n.lhsIdx (ix2 p q) ((contrEquiv1 dot_S5000x3_S3x32_S5000x32_1_0_0_1_n_n 3 rfl rfl).symm k) = ix2 p k := funext fun a => Fin.ext (by
      match a with
      | ⟨0, _⟩ => exact lhs0_0 _ _
      | ⟨1, _⟩ => exact (lhs0_1 _ _).trans hk)
    have er : dot_S5000x3_S3x32_S5000x32_1_0_0_1_n_n.rhsIdx (ix2 p q) ((contrEquiv1 dot_S5000x3_S3x32_S5000x32_1_0_0_1_n_n 3 rfl rfl).symm k) = ix2 k q := funext fun a => Fin.ext (by
      match a with
      | ⟨0, _⟩ => exact (rhs0_0 _ _).trans hk
      | ⟨1, _⟩ => exact rhs0_1 _ _)
    show x0 (dot_S5000x3_S3x32_S5000x32_1_0_0_1_n_n.lhsIdx (ix2 p q) ((contrEquiv1 dot_S5000x3_S3x32_S5000x32_1_0_0_1_n_n 3 rfl rfl).symm k)) * x1 (dot_S5000x3_S3x32_S5000x32_1_0_0_1_n_n.rhsIdx (ix2 p q) ((contrEquiv1 dot_S5000x3_S3x32_S5000x32_1_0_0_1_n_n 3 rfl rfl).symm k)) = _
    rw [el, er]
  · rw [shapeCast_self]
    exact Cert.Lib.Layout.broadcastTo_a1_ab_apply x2 broadcasts_S5000x1_S5000x32 p q

/-! ## From blocks to the array -/

theorem hz2 : (![0, 0] : Fin 2 → Nat) = fun _ => 0 := funext fun a => by fin_cases a <;> rfl

/-- The entry (p, q) of the result: the row p of x against the column q of w, scaled by the row's factor. -/
def g0 (x : S100000x3.Idx → EReal) (w : S3x32.Idx → EReal) (d : S100000x1.Idx → EReal) : S100000x32.Idx → EReal :=
  fun j => (∑ k : Fin 3, x (ix2 (⟨(j 0).val, (j 0).isLt⟩ : Fin 100000) k) * w (ix2 k (⟨(j 1).val, (j 1).isLt⟩ : Fin 32)))
    * d (ix2 (⟨(j 0).val, (j 0).isLt⟩ : Fin 100000) (0 : Fin 1))

/-- g0 at the entry (r, q). -/
theorem g0_ix2 (x : S100000x3.Idx → EReal) (w : S3x32.Idx → EReal) (d : S100000x1.Idx → EReal) (r : Fin 100000) (q : Fin 32) :
    g0 x w d (ix2 r q) = (∑ k : Fin 3, x (ix2 r k) * w (ix2 k q)) * d (ix2 r (0 : Fin 1)) := rfl

/-- The printed index maps, decided over the grid: the row blocks of x, of the column and of the output move together,
    block t at point t; the weights' block is the whole matrix. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Row p of point t's block of x is row 5000 t + p of x. -/
theorem blk0_0 (c : Dev nD) (t : Fin cfg0.N) (p : Fin 5000) (k : Fin 3) (hr : t.val * 5000 + p.val < 100000) :
    iblk0 V c 0 t (ix2 p k) = V c main_arg0 (ix2 (⟨t.val * 5000 + p.val, hr⟩ : Fin 100000) k) := by
  obtain ⟨e00, e01, e10, e11, e20, e21, e30, e31⟩ := idx_facts0 t
  show V c main_arg0 (((cfg0.win 0).blk t).view.emb (ix2 p k)) = V c main_arg0 _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 3 + 1 * k.val = k.val; omega

/-- Every point's block of w is w. -/
theorem blk0_1 (c : Dev nD) (t : Fin cfg0.N) (k : Fin 3) (q : Fin 32) :
    iblk0 V c 1 t (ix2 k q) = V c main_arg3 (ix2 k q) := by
  obtain ⟨e00, e01, e10, e11, e20, e21, e30, e31⟩ := idx_facts0 t
  show V c main_arg3 (((cfg0.win 1).blk t).view.emb (ix2 k q)) = V c main_arg3 _
  refine congrArg _ (funext fun a => Fin.ext ?_)
  match a with
  | ⟨0, _⟩ => show win0_1.index t (0 : Fin 2) * 3 + 1 * k.val = k.val; omega
  | ⟨1, _⟩ => show win0_1.index t (1 : Fin 2) * 32 + 1 * q.val = q.val; omega

/-- Row p of point t's block of the column is its row 5000 t + p. -/
theorem blk0_2 (c : Dev nD) (t : Fin cfg0.N) (p : Fin 5000) (u : Fin 1) (hr : t.val * 5000 + p.val < 100000) :
    iblk0 V c 2 t (ix2 p u) = V c main_v15 (ix2 (⟨t.val * 5000 + p.val, hr⟩ : Fin 100000) u) := by
  obtain ⟨e00, e01, e10, e11, e20, e21, e30, e31⟩ := idx_facts0 t
  show V c main_v15 (((cfg0.win 2).blk t).view.emb (ix2 p u)) = V c main_v15 _
  refine congrArg _ (funext fun a => Fin.ext ?_)
  match a with
  | ⟨0, _⟩ => show win0_2.index t (0 : Fin 2) * 5000 + 1 * p.val = t.val * 5000 + p.val; omega
  | ⟨1, _⟩ => show win0_2.index t (1 : Fin 2) * 1 + 1 * u.val = u.val; omega

/-- Entry (p, q) of point t's output block sits at (5000 t + p, q) of the array. -/
theorem emb0_3 (t : Fin cfg0.N) (p : Fin 5000) (q : Fin 32) (hr : t.val * 5000 + p.val < 100000) :
    ((cfg0.win 3).blk t).view.emb (ix2 p q) = (ix2 (⟨t.val * 5000 + p.val, hr⟩ : Fin 100000) q : S100000x32.Idx) := by
  obtain ⟨e00, e01, e10, e11, e20, e21, e30, e31⟩ := idx_facts0 t
  refine funext fun a => Fin.ext ?_
  match a with
  | ⟨0, _⟩ => show win0_3.index t (0 : Fin 2) * 5000 + 1 * p.val = t.val * 5000 + p.val; omega
  | ⟨1, _⟩ => show win0_3.index t (1 : Fin 2) * 32 + 1 * q.val = q.val; omega

/-- What point t writes back is block t of g0 of the arrays as the region finds them. -/
theorem flushed0_3_eq (c : Dev nD) (t : Fin cfg0.N) :
    (dat0 (F := Ideal) V c).flushed 3 t
      = ((cfg0.win 3).blk t).view.read (Elt Ideal) (g0 (V c main_arg0) (V c main_arg3) (V c main_v15)) := by
  show (cfg0.win 3).cut (grid0.coords t) ((dat0 V c).after 3 t) = _
  rw [after0_3]
  unfold out0_3
  rw [View.canon_unit_zero hz2]
  simp only [View.ld_unit_zero (S := S5000x3) hz2, View.ld_unit_zero (S := S3x32) hz2, View.ld_unit_zero (S := S5000x1) hz2]
  have ht : t.val < 20 := lt_of_lt_of_eq t.isLt N_0
  funext j
  obtain ⟨p, q, rfl⟩ : ∃ (p : Fin 5000) (q : Fin 32), j = ix2 p q := ⟨j 0, j 1, eq_ix2 j⟩
  have hr : t.val * 5000 + p.val < 100000 := by have := p.isLt; omega
  refine (pay0_apply _ _ _ p q).trans ?_
  show _ = g0 (V c main_arg0) (V c main_arg3) (V c main_v15) (((cfg0.win 3).blk t).view.emb (ix2 p q))
  rw [emb0_3 t p q hr, g0_ix2, blk0_2 V c t p 0 hr]
  refine congrArg (· * _) (Finset.sum_congr rfl fun k _ => ?_)
  rw [blk0_0 V c t p k hr, blk0_1 V c t k q]

/-- An index of the array is in point t's block iff each coordinate is in the block's range on its axis. -/
theorem mem_blk0_3 (t : Fin cfg0.N) (i : S100000x32.Idx) :
    i ∈ ((cfg0.win 3).blk t).view.set ↔ ∀ a : Fin 2, win0_3.index t a * S5000x32.size a ≤ (i a).val ∧ (i a).val < win0_3.index t a * S5000x32.size a + S5000x32.size a := by
  show i ∈ ((View.whole main_v16).slice (win0_3.rect t)).set ↔ _
  rw [View.set_slice_whole, Rect.mem_set_unit]
  exact Iff.rfl

/-- Every index of the array is in some point's block: row r is in block r / 5000. -/
theorem cover0_3' (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  have hN : (i 0).val / 5000 < cfg0.N := lt_of_lt_of_eq (by omega : (i 0).val / 5000 < 20) N_0.symm
  refine ⟨⟨(i 0).val / 5000, hN⟩, flush0_3 _, ?_⟩
  obtain ⟨e00, e01, e10, e11, e20, e21, e30, e31⟩ := idx_facts0 ⟨(i 0).val / 5000, hN⟩
  rw [mem_blk0_3]
  intro a
  match a with
  | ⟨0, _⟩ => show win0_3.index _ (0 : Fin 2) * 5000 ≤ (i 0).val ∧ (i 0).val < win0_3.index _ (0 : Fin 2) * 5000 + 5000; rw [e30]; show (i 0).val / 5000 * 5000 ≤ (i 0).val ∧ (i 0).val < (i 0).val / 5000 * 5000 + 5000; omega
  | ⟨1, _⟩ => show win0_3.index _ (1 : Fin 2) * 32 ≤ (i 1).val ∧ (i 1).val < win0_3.index _ (1 : Fin 2) * 32 + 32; rw [e31]; omega

/-- THE ARRAY after the region: g0 of the arrays as the region finds them. -/
theorem final0 (c : Dev nD) :
    (dat0 (F := Ideal) V c).arrAt 3 cfg0.N = g0 (V c main_arg0) (V c main_arg3) (V c main_v15) :=
  (dat0 (F := Ideal) V c).arrAt_eq_of_cover 3 _ (fun t _ => flushed0_3_eq V c t) cover0_3'

end Cert.GcnValue

end
-- ==== Proof.Payloads.lean ====
/-
  The value, at an index, of what three kernel bodies store: each is read at the exact extended-real
  instance, where narrowing to bf16 is the identity, a matrix product accumulated into the zero splat
  is the plain sum over the contracted coordinate, maximumf is max, and the zero word is 0.

  * Two "bias, relu, product, scale" bodies: with d the [R,1] column, a the [R,K] block, b the [1,K] row and
    W the [K,C] matrix, entry (p, q) is (∑ k, max (a p k · d p + b k) 0 · W k q) · d p.
  * The two-layer head: with x [R,J], W1 [J,K], b1 [1,K], W2 [K,C], b2 [1,C], entry (p, q) is
    (∑ k, max ((∑ j, x p j · W1 j k) + b1 k) 0 · W2 k q) + b2 q.
-/
import proofs.«147315_j51419348468094_2_alg».proof.Proof.Gen.KernelIdeal.Skeleton
import proofs.«147315_j51419348468094_2_alg».proof.Proof.LibLayoutColumn
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.GcnValue

open Idealize.ShloMosaic Idealize.ShloMosaic.ValueIdx Cert.KernelIdeal Cert.KernelIdeal.Gen

/-- An m×k by k×n product accumulated into the zero splat, read at (a, b): the sum over the contracted
    coordinate of the products of the entries. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

theorem dot1_eq : dot_S5000x32_S32x64_S5000x64_1_0_0_1_n_n = DotDims.plain 5000 32 64 := rfl

theorem k1_pay1_apply (v0 : Vec Ideal S5000x1 .f32) (v2 : Vec Ideal S5000x32 .f32) (v6 : Vec Ideal S1x32 .f32)
    (v13 : Vec Ideal S32x64 .f32) (p : Fin 5000) (q : Fin 64) :
    k1_pay1 v0 v2 v6 v13 (ix2 p q)
      = (∑ k : Fin 32, max (v2 (ix2 p k) * v0 (ix2 p 0) + v6 (ix2 0 k)) 0 * v13 (ix2 k q)) * v0 (ix2 p 0) := by
  unfold k1_pay1
  rw [shapeCast_self v0, shapeCast_self v2, shapeCast_self v6, mulf_apply,
    Cert.Lib.Layout.broadcastTo_a1_ab_apply]
  refine congrArg (· * v0 (ix2 p 0)) ?_
  refine (matmul_plain_zero_apply none _ _ p q).trans (Finset.sum_congr rfl fun k _ => ?_)
  rw [truncf_apply, truncf_apply, maximumf_apply, addf_apply, mulf_apply,
    Cert.Lib.Layout.broadcastTo_a1_ab_apply, broadcastTo_1b_ab_apply, broadcast_apply]
  exact congrArg (fun z => max (v2 (ix2 p k) * v0 (ix2 p 0) + v6 (ix2 0 k)) z * v13 (ix2 k q)) Ideal.ofBits_zero_f32

theorem k2_pay1_apply (v0 : Vec Ideal S5000x1 .f32) (v2 : Vec Ideal S5000x64 .f32) (v6 : Vec Ideal S1x64 .f32)
    (v13 : Vec Ideal S64x128 .f32) (p : Fin 5000) (q : Fin 128) :
    k2_pay1 v0 v2 v6 v13 (ix2 p q)
      = (∑ k : Fin 64, max (v2 (ix2 p k) * v0 (ix2 p 0) + v6 (ix2 0 k)) 0 * v13 (ix2 k q)) * v0 (ix2 p 0) := by
  unfold k2_pay1
  rw [shapeCast_self v0, shapeCast_self v2, shapeCast_self v6, mulf_apply,
    Cert.Lib.Layout.broadcastTo_a1_ab_apply]
  refine congrArg (· * v0 (ix2 p 0)) ?_
  refine (matmul_plain_zero_apply none _ _ p q).trans (Finset.sum_congr rfl fun k _ => ?_)
  rw [truncf_apply, truncf_apply, maximumf_apply, addf_apply, mulf_apply,
    Cert.Lib.Layout.broadcastTo_a1_ab_apply, broadcastTo_1b_ab_apply, broadcast_apply]
  exact congrArg (fun z => max (v2 (ix2 p k) * v0 (ix2 p 0) + v6 (ix2 0 k)) z * v13 (ix2 k q)) Ideal.ofBits_zero_f32

theorem k4_pay1_apply (v0 : Vec Ideal S256x128 .f32) (v3 : Vec Ideal S128x64 .f32) (v6 : Vec Ideal S1x64 .f32)
    (v13 : Vec Ideal S64x10 .f32) (v16 : Vec Ideal S1x10 .f32) (p : Fin 256) (q : Fin 10) :
    k4_pay1 v0 v3 v6 v13 v16 (ix2 p q)
      = (∑ k : Fin 64, max ((∑ j : Fin 128, v0 (ix2 p j) * v3 (ix2 j k)) + v6 (ix2 0 k)) 0 * v13 (ix2 k q))
        + v16 (ix2 0 q) := by
  unfold k4_pay1
  rw [shapeCast_self v0, shapeCast_self v6, shapeCast_self v16, addf_apply, broadcastTo_1b_ab_apply]
  refine congrArg (· + v16 (ix2 0 q)) ?_
  refine (matmul_plain_zero_apply none _ _ p q).trans (Finset.sum_congr rfl fun k _ => ?_)
  rw [truncf_apply, truncf_apply, maximumf_apply, addf_apply, broadcastTo_1b_ab_apply, broadcast_apply]
  have h5 : matmul dot_S256x128_S128x64_S256x64_1_0_0_1_n_n none (truncf FTy.bf16 v0 bitsLt_bf16_f32)
      (truncf FTy.bf16 v3 bitsLt_bf16_f32) (constant (F := Ideal) S256x64 FTy.f32 0x00000000#32) (ix2 p k)
        = ∑ j : Fin 128, v0 (ix2 p j) * v3 (ix2 j k) :=
    matmul_plain_zero_apply none (truncf FTy.bf16 v0 bitsLt_bf16_f32) (truncf FTy.bf16 v3 bitsLt_bf16_f32) p k
  rw [h5]
  exact congrArg (fun z => max ((∑ j : Fin 128, v0 (ix2 p j) * v3 (ix2 j k)) + v6 (ix2 0 k)) z * v13 (ix2 k q))
    Ideal.ofBits_zero_f32

end Cert.GcnValue

end
-- ==== Proof.Region1.lean ====
/-
  The value of kernel region 1, at the exact (extended-real) instance.

  The region runs over 20 grid points; point t holds rows 5000 t … 5000 t + 4999 of a ([100000, 32]), of the column d
  ([100000, 1]) and of the output ([100000, 64]), and the whole of the bias row b ([1, 32]) and of the matrix w ([32, 64]).
  Its body scales each row of its block of a by the column's entry of that row, adds the bias row, takes the maximum
  with zero, multiplies the result by w into a zero accumulator (the operands narrowed on the way in, which at this
  instance changes nothing, so the product is the plain sum over the contracted index), and scales each row of the
  product by the column's entry again. So the output array ends as one function of the four arrays: entry (p, q) is
  (Σ_k max (a(p, k) · d(p, 0) + b(0, k)) 0 · w(k, q)) · d(p, 0).

  Each window's block is read at an index of its array (from the index maps decided over the 20 points), what a point
  writes back is its block of that function, the blocks cover the array, and so the array is that function.
-/
import proofs.«147315_j51419348468094_2_alg».proof.Proof.Gen.KernelIdeal.Frame
import proofs.«147315_j51419348468094_2_alg».proof.Proof.Payloads
import Idealize.ShloMosaic.Lib.Pipeline.Value
import Idealize.ShloMosaic.Lib.ValueIdx

noncomputable section

namespace Cert.GcnValue

open Cert.KernelIdeal Cert.KernelIdeal.Gen Idealize.ShloMosaic Idealize.ShloMosaic.ValueIdx Idealize.ShloMosaic.TcCoe
open Idealize.ShloMosaic.Pipeline (Dat)

private theorem hz : (![0, 0] : Fin 2 → Nat) = fun _ => 0 := funext fun a => by fin_cases a <;> rfl

/-- The entry (p, q) of the result: row p of a scaled by its factor, biased, clamped below at zero, against column q of
    w, the sum scaled by the row's factor again. -/
def g1 (a : S100000x32.Idx → EReal) (d : S100000x1.Idx → EReal) (b : S1x32.Idx → EReal) (w : S32x64.Idx → EReal) :
    S100000x64.Idx → EReal :=
  fun j => (∑ k : Fin 32, max (a (ix2 (⟨(j 0).val, (j 0).isLt⟩ : Fin 100000) k) * d (ix2 (⟨(j 0).val, (j 0).isLt⟩ : Fin 100000) (0 : Fin 1))
      + b (ix2 (0 : Fin 1) k)) 0 * w (ix2 k (⟨(j 1).val, (j 1).isLt⟩ : Fin 64)))
    * d (ix2 (⟨(j 0).val, (j 0).isLt⟩ : Fin 100000) (0 : Fin 1))

/-- g1 at the entry (r, q). -/
theorem g1_ix2 (a : S100000x32.Idx → EReal) (d : S100000x1.Idx → EReal) (b : S1x32.Idx → EReal) (w : S32x64.Idx → EReal)
    (r : Fin 100000) (q : Fin 64) :
    g1 a d b w (ix2 r q)
      = (∑ k : Fin 32, max (a (ix2 r k) * d (ix2 r (0 : Fin 1)) + b (ix2 (0 : Fin 1) k)) 0 * w (ix2 k q)) * d (ix2 r (0 : Fin 1)) := rfl

/-- The printed index maps, decided over the grid: the row blocks of a, of the column and of the output move together,
    block t at point t; the bias row's and the matrix's block is the whole array. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- Row p of point t's block of a is row 5000 t + p of a. -/
theorem blk1_0 (c : Dev nD) (t : Fin cfg1.N) (p : Fin 5000) (k : Fin 32) (hr : t.val * 5000 + p.val < 100000) :
    iblk1 V c 0 t (ix2 p k) = V c main_v26 (ix2 (⟨t.val * 5000 + p.val, hr⟩ : Fin 100000) k) := by
  obtain ⟨e00, e01, e10, e11, e20, e21, e30, e31, e40, e41⟩ := idx_facts1 t
  show V c main_v26 (((cfg1.win 0).blk t).view.emb (ix2 p k)) = V c main_v26 _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 32 + 1 * k.val = k.val; omega

/-- Row p of point t's block of the column is its row 5000 t + p. -/
theorem blk1_1 (c : Dev nD) (t : Fin cfg1.N) (p : Fin 5000) (u : Fin 1) (hr : t.val * 5000 + p.val < 100000) :
    iblk1 V c 1 t (ix2 p u) = V c main_v15 (ix2 (⟨t.val * 5000 + p.val, hr⟩ : Fin 100000) u) := by
  obtain ⟨e00, e01, e10, e11, e20, e21, e30, e31, e40, e41⟩ := idx_facts1 t
  show V c main_v15 (((cfg1.win 1).blk t).view.emb (ix2 p u)) = V c main_v15 _
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 1 + 1 * u.val = u.val; omega

/-- Every point's block of the bias row is the row. -/
theorem blk1_2 (c : Dev nD) (t : Fin cfg1.N) (u : Fin 1) (k : Fin 32) :
    iblk1 V c 2 t (ix2 u k) = V c main_v27 (ix2 u k) := by
  obtain ⟨e00, e01, e10, e11, e20, e21, e30, e31, e40, e41⟩ := idx_facts1 t
  show V c main_v27 (((cfg1.win 2).blk t).view.emb (ix2 u k)) = V c main_v27 _
  refine congrArg _ (funext fun a => Fin.ext ?_)
  match a with
  | ⟨0, _⟩ => show win1_2.index t (0 : Fin 2) * 1 + 1 * u.val = u.val; omega
  | ⟨1, _⟩ => show win1_2.index t (1 : Fin 2) * 32 + 1 * k.val = k.val; omega

/-- Every point's block of w is w. -/
theorem blk1_3 (c : Dev nD) (t : Fin cfg1.N) (k : Fin 32) (q : Fin 64) :
    iblk1 V c 3 t (ix2 k q) = V c main_arg5 (ix2 k q) := by
  obtain ⟨e00, e01, e10, e11, e20, e21, e30, e31, e40, e41⟩ := idx_facts1 t
  show V c main_arg5 (((cfg1.win 3).blk t).view.emb (ix2 k q)) = V c main_arg5 _
  refine congrArg _ (funext fun a => Fin.ext ?_)
  match a with
  | ⟨0, _⟩ => show win1_3.index t (0 : Fin 2) * 32 + 1 * k.val = k.val; omega
  | ⟨1, _⟩ => show win1_3.index t (1 : Fin 2) * 64 + 1 * q.val = q.val; omega

/-- Entry (p, q) of point t's output block sits at (5000 t + p, q) of the array. -/
theorem emb1_4 (t : Fin cfg1.N) (p : Fin 5000) (q : Fin 64) (hr : t.val * 5000 + p.val < 100000) :
    ((cfg1.win 4).blk t).view.emb (ix2 p q) = (ix2 (⟨t.val * 5000 + p.val, hr⟩ : Fin 100000) q : S100000x64.Idx) := by
  obtain ⟨e00, e01, e10, e11, e20, e21, e30, e31, e40, e41⟩ := idx_facts1 t
  refine funext fun a => Fin.ext ?_
  match a with
  | ⟨0, _⟩ => show win1_4.index t (0 : Fin 2) * 5000 + 1 * p.val = t.val * 5000 + p.val; omega
  | ⟨1, _⟩ => show win1_4.index t (1 : Fin 2) * 64 + 1 * q.val = q.val; omega

/-- What point t writes back is block t of g1 of the arrays as the region finds them. -/
theorem flushed1_4_eq (c : Dev nD) (t : Fin cfg1.N) :
    (dat1 (F := Ideal) V c).flushed 4 t
      = ((cfg1.win 4).blk t).view.read (Elt Ideal) (g1 (V c main_v26) (V c main_v15) (V c main_v27) (V c main_arg5)) := by
  show (cfg1.win 4).cut (grid1.coords t) ((dat1 V c).after 4 t) = _
  rw [after1_4]
  unfold out1_4
  rw [View.canon_unit_zero hz]
  simp only [View.ld_unit_zero (S := S5000x32) hz, View.ld_unit_zero (S := S5000x1) hz, View.ld_unit_zero (S := S1x32) hz,
    View.ld_unit_zero (S := S32x64) hz]
  have ht : t.val < 20 := lt_of_lt_of_eq t.isLt N_1
  funext j
  obtain ⟨p, q, rfl⟩ : ∃ (p : Fin 5000) (q : Fin 64), j = ix2 p q := ⟨j 0, j 1, eq_ix2 j⟩
  have hr : t.val * 5000 + p.val < 100000 := by have := p.isLt; omega
  refine (k1_pay1_apply _ _ _ _ p q).trans ?_
  show _ = g1 (V c main_v26) (V c main_v15) (V c main_v27) (V c main_arg5) (((cfg1.win 4).blk t).view.emb (ix2 p q))
  rw [emb1_4 t p q hr, g1_ix2, blk1_1 V c t p 0 hr]
  refine congrArg (· * _) (Finset.sum_congr rfl fun k _ => ?_)
  rw [blk1_0 V c t p k hr, blk1_2 V c t 0 k, blk1_3 V c t k q]

/-- An index of the array is in point t's block iff each coordinate is in the block's range on its axis. -/
theorem mem_blk1_4 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v28).slice (win1_4.rect t)).set ↔ _
  rw [View.set_slice_whole, Rect.mem_set_unit]
  exact Iff.rfl

/-- Every index of the array is in some point's block: row r is in block r / 5000. -/
theorem cover1_4' (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : (i 0).val / 5000 < cfg1.N := lt_of_lt_of_eq (by omega : (i 0).val / 5000 < 20) N_1.symm
  refine ⟨⟨(i 0).val / 5000, hN⟩, flush1_4 _, ?_⟩
  obtain ⟨e00, e01, e10, e11, e20, e21, e30, e31, e40, e41⟩ := idx_facts1 ⟨(i 0).val / 5000, hN⟩
  rw [mem_blk1_4]
  intro a
  match a with
  | ⟨0, _⟩ => show win1_4.index _ (0 : Fin 2) * 5000 ≤ (i 0).val ∧ (i 0).val < win1_4.index _ (0 : Fin 2) * 5000 + 5000; rw [e40]; show (i 0).val / 5000 * 5000 ≤ (i 0).val ∧ (i 0).val < (i 0).val / 5000 * 5000 + 5000; omega
  | ⟨1, _⟩ => show win1_4.index _ (1 : Fin 2) * 64 ≤ (i 1).val ∧ (i 1).val < win1_4.index _ (1 : Fin 2) * 64 + 64; rw [e41]; omega

/-- THE ARRAY after the region: g1 of the arrays as the region finds them. -/
theorem final1 (c : Dev nD) :
    (dat1 (F := Ideal) V c).arrAt 4 cfg1.N = g1 (V c main_v26) (V c main_v15) (V c main_v27) (V c main_arg5) :=
  (dat1 (F := Ideal) V c).arrAt_eq_of_cover 4 _ (fun t _ => flushed1_4_eq V c t) cover1_4'

end Cert.GcnValue

end
-- ==== Proof.Region2.lean ====
/-
  The value of kernel region 2, at the exact (extended-real) instance.

  The region runs over 20 grid points; point t holds rows 5000 t … 5000 t + 4999 of a ([100000, 64]), of the column d
  ([100000, 1]) and of the output ([100000, 128]), and the whole of the bias row b ([1, 64]) and of the matrix w ([64, 128]).
  Its body scales each row of its block of a by the column's entry of that row, adds the bias row, takes the maximum
  with zero, multiplies the result by w into a zero accumulator (the operands narrowed on the way in, which at this
  instance changes nothing, so the product is the plain sum over the contracted index), and scales each row of the
  product by the column's entry again. So the output array ends as one function of the four arrays: entry (p, q) is
  (Σ_k max (a(p, k) · d(p, 0) + b(0, k)) 0 · w(k, q)) · d(p, 0).

  Each window's block is read at an index of its array (from the index maps decided over the 20 points), what a point
  writes back is its block of that function, the blocks cover the array, and so the array is that function.
-/
import proofs.«147315_j51419348468094_2_alg».proof.Proof.Gen.KernelIdeal.Frame
import proofs.«147315_j51419348468094_2_alg».proof.Proof.Payloads
import Idealize.ShloMosaic.Lib.Pipeline.Value
import Idealize.ShloMosaic.Lib.ValueIdx

noncomputable section

namespace Cert.GcnValue

open Cert.KernelIdeal Cert.KernelIdeal.Gen Idealize.ShloMosaic Idealize.ShloMosaic.ValueIdx Idealize.ShloMosaic.TcCoe
open Idealize.ShloMosaic.Pipeline (Dat)

private theorem hz : (![0, 0] : Fin 2 → Nat) = fun _ => 0 := funext fun a => by fin_cases a <;> rfl

/-- The entry (p, q) of the result: row p of a scaled by its factor, biased, clamped below at zero, against column q of
    w, the sum scaled by the row's factor again. -/
def g2 (a : S100000x64.Idx → EReal) (d : S100000x1.Idx → EReal) (b : S1x64.Idx → EReal) (w : S64x128.Idx → EReal) :
    S100000x128.Idx → EReal :=
  fun j => (∑ k : Fin 64, max (a (ix2 (⟨(j 0).val, (j 0).isLt⟩ : Fin 100000) k) * d (ix2 (⟨(j 0).val, (j 0).isLt⟩ : Fin 100000) (0 : Fin 1))
      + b (ix2 (0 : Fin 1) k)) 0 * w (ix2 k (⟨(j 1).val, (j 1).isLt⟩ : Fin 128)))
    * d (ix2 (⟨(j 0).val, (j 0).isLt⟩ : Fin 100000) (0 : Fin 1))

/-- g2 at the entry (r, q). -/
theorem g2_ix2 (a : S100000x64.Idx → EReal) (d : S100000x1.Idx → EReal) (b : S1x64.Idx → EReal) (w : S64x128.Idx → EReal)
    (r : Fin 100000) (q : Fin 128) :
    g2 a d b w (ix2 r q)
      = (∑ k : Fin 64, max (a (ix2 r k) * d (ix2 r (0 : Fin 1)) + b (ix2 (0 : Fin 1) k)) 0 * w (ix2 k q)) * d (ix2 r (0 : Fin 1)) := rfl

/-- The printed index maps, decided over the grid: the row blocks of a, of the column and of the output move together,
    block t at point t; the bias row's and the matrix's block is the whole array. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-- Row p of point t's block of a is row 5000 t + p of a. -/
theorem blk2_0 (c : Dev nD) (t : Fin cfg2.N) (p : Fin 5000) (k : Fin 64) (hr : t.val * 5000 + p.val < 100000) :
    iblk2 V c 0 t (ix2 p k) = V c main_v38 (ix2 (⟨t.val * 5000 + p.val, hr⟩ : Fin 100000) k) := by
  obtain ⟨e00, e01, e10, e11, e20, e21, e30, e31, e40, e41⟩ := idx_facts2 t
  show V c main_v38 (((cfg2.win 0).blk t).view.emb (ix2 p k)) = V c main_v38 _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 64 + 1 * k.val = k.val; omega

/-- Row p of point t's block of the column is its row 5000 t + p. -/
theorem blk2_1 (c : Dev nD) (t : Fin cfg2.N) (p : Fin 5000) (u : Fin 1) (hr : t.val * 5000 + p.val < 100000) :
    iblk2 V c 1 t (ix2 p u) = V c main_v15 (ix2 (⟨t.val * 5000 + p.val, hr⟩ : Fin 100000) u) := by
  obtain ⟨e00, e01, e10, e11, e20, e21, e30, e31, e40, e41⟩ := idx_facts2 t
  show V c main_v15 (((cfg2.win 1).blk t).view.emb (ix2 p u)) = V c main_v15 _
  refine congrArg _ (funext fun a => Fin.ext ?_)
  match a with
  | ⟨0, _⟩ => show win2_1.index t (0 : Fin 2) * 5000 + 1 * p.val = t.val * 5000 + p.val; omega
  | ⟨1, _⟩ => show win2_1.index t (1 : Fin 2) * 1 + 1 * u.val = u.val; omega

/-- Every point's block of the bias row is the row. -/
theorem blk2_2 (c : Dev nD) (t : Fin cfg2.N) (u : Fin 1) (k : Fin 64) :
    iblk2 V c 2 t (ix2 u k) = V c main_v39 (ix2 u k) := by
  obtain ⟨e00, e01, e10, e11, e20, e21, e30, e31, e40, e41⟩ := idx_facts2 t
  show V c main_v39 (((cfg2.win 2).blk t).view.emb (ix2 u k)) = V c main_v39 _
  refine congrArg _ (funext fun a => Fin.ext ?_)
  match a with
  | ⟨0, _⟩ => show win2_2.index t (0 : Fin 2) * 1 + 1 * u.val = u.val; omega
  | ⟨1, _⟩ => show win2_2.index t (1 : Fin 2) * 64 + 1 * k.val = k.val; omega

/-- Every point's block of w is w. -/
theorem blk2_3 (c : Dev nD) (t : Fin cfg2.N) (k : Fin 64) (q : Fin 128) :
    iblk2 V c 3 t (ix2 k q) = V c main_arg7 (ix2 k q) := by
  obtain ⟨e00, e01, e10, e11, e20, e21, e30, e31, e40, e41⟩ := idx_facts2 t
  show V c main_arg7 (((cfg2.win 3).blk t).view.emb (ix2 k q)) = V c main_arg7 _
  refine congrArg _ (funext fun a => Fin.ext ?_)
  match a with
  | ⟨0, _⟩ => show win2_3.index t (0 : Fin 2) * 64 + 1 * k.val = k.val; omega
  | ⟨1, _⟩ => show win2_3.index t (1 : Fin 2) * 128 + 1 * q.val = q.val; omega

/-- Entry (p, q) of point t's output block sits at (5000 t + p, q) of the array. -/
theorem emb2_4 (t : Fin cfg2.N) (p : Fin 5000) (q : Fin 128) (hr : t.val * 5000 + p.val < 100000) :
    ((cfg2.win 4).blk t).view.emb (ix2 p q) = (ix2 (⟨t.val * 5000 + p.val, hr⟩ : Fin 100000) q : S100000x128.Idx) := by
  obtain ⟨e00, e01, e10, e11, e20, e21, e30, e31, e40, e41⟩ := idx_facts2 t
  refine funext fun a => Fin.ext ?_
  match a with
  | ⟨0, _⟩ => show win2_4.index t (0 : Fin 2) * 5000 + 1 * p.val = t.val * 5000 + p.val; omega
  | ⟨1, _⟩ => show win2_4.index t (1 : Fin 2) * 128 + 1 * q.val = q.val; omega

/-- What point t writes back is block t of g2 of the arrays as the region finds them. -/
theorem flushed2_4_eq (c : Dev nD) (t : Fin cfg2.N) :
    (dat2 (F := Ideal) V c).flushed 4 t
      = ((cfg2.win 4).blk t).view.read (Elt Ideal) (g2 (V c main_v38) (V c main_v15) (V c main_v39) (V c main_arg7)) := by
  show (cfg2.win 4).cut (grid2.coords t) ((dat2 V c).after 4 t) = _
  rw [after2_4]
  unfold out2_4
  rw [View.canon_unit_zero hz]
  simp only [View.ld_unit_zero (S := S5000x64) hz, View.ld_unit_zero (S := S5000x1) hz, View.ld_unit_zero (S := S1x64) hz,
    View.ld_unit_zero (S := S64x128) hz]
  have ht : t.val < 20 := lt_of_lt_of_eq t.isLt N_2
  funext j
  obtain ⟨p, q, rfl⟩ : ∃ (p : Fin 5000) (q : Fin 128), j = ix2 p q := ⟨j 0, j 1, eq_ix2 j⟩
  have hr : t.val * 5000 + p.val < 100000 := by have := p.isLt; omega
  refine (k2_pay1_apply _ _ _ _ p q).trans ?_
  show _ = g2 (V c main_v38) (V c main_v15) (V c main_v39) (V c main_arg7) (((cfg2.win 4).blk t).view.emb (ix2 p q))
  rw [emb2_4 t p q hr, g2_ix2, blk2_1 V c t p 0 hr]
  refine congrArg (· * _) (Finset.sum_congr rfl fun k _ => ?_)
  rw [blk2_0 V c t p k hr, blk2_2 V c t 0 k, blk2_3 V c t k q]

/-- An index of the array is in point t's block iff each coordinate is in the block's range on its axis. -/
theorem mem_blk2_4 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v40).slice (win2_4.rect t)).set ↔ _
  rw [View.set_slice_whole, Rect.mem_set_unit]
  exact Iff.rfl

/-- Every index of the array is in some point's block: row r is in block r / 5000. -/
theorem cover2_4' (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : (i 0).val / 5000 < cfg2.N := lt_of_lt_of_eq (by omega : (i 0).val / 5000 < 20) N_2.symm
  refine ⟨⟨(i 0).val / 5000, hN⟩, flush2_4 _, ?_⟩
  obtain ⟨e00, e01, e10, e11, e20, e21, e30, e31, e40, e41⟩ := idx_facts2 ⟨(i 0).val / 5000, hN⟩
  rw [mem_blk2_4]
  intro a
  match a with
  | ⟨0, _⟩ => show win2_4.index _ (0 : Fin 2) * 5000 ≤ (i 0).val ∧ (i 0).val < win2_4.index _ (0 : Fin 2) * 5000 + 5000; rw [e40]; show (i 0).val / 5000 * 5000 ≤ (i 0).val ∧ (i 0).val < (i 0).val / 5000 * 5000 + 5000; omega
  | ⟨1, _⟩ => show win2_4.index _ (1 : Fin 2) * 128 ≤ (i 1).val ∧ (i 1).val < win2_4.index _ (1 : Fin 2) * 128 + 128; rw [e41]; omega

/-- THE ARRAY after the region: g2 of the arrays as the region finds them. -/
theorem final2 (c : Dev nD) :
    (dat2 (F := Ideal) V c).arrAt 4 cfg2.N = g2 (V c main_v38) (V c main_v15) (V c main_v39) (V c main_arg7) :=
  (dat2 (F := Ideal) V c).arrAt_eq_of_cover 4 _ (fun t _ => flushed2_4_eq V c t) cover2_4'

end Cert.GcnValue

end
-- ==== Proof.Region3.lean ====
/-
  The value of the fourth kernel region, at the exact (extended-real) instance.

  The region runs over 20 grid points; point t holds rows 5000 t … 5000 t + 4999 of a ([100000, 128]), of the column d
  ([100000, 1]) and of the output ([100000, 128]), and the whole bias row b ([1, 128]). Its body scales each row of the
  block of a by the column's entry of that row, adds the bias row to every row, and takes the maximum with zero. So the
  output array ends as one function of the three arrays: entry (p, q) is max (a(p, q) · d(p, 0) + b(0, q)) 0.

  First the payload is read at an index (pay3_apply); then each window's block is read at an index of the array
  (blk3_0 … emb3_3, from the index maps decided over the 20 points), what a point writes back is its block of that
  function (flushed3_3_eq), the blocks cover the array (cover3_3'), and so the array is that function (final3).
-/
import proofs.«147315_j51419348468094_2_alg».proof.Proof.Gen.KernelIdeal.Frame
import proofs.«147315_j51419348468094_2_alg».proof.Proof.LibLayoutColumn
import proofs.«147315_j51419348468094_2_alg».proof.Proof.Region0
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.GcnValue

open Cert.KernelIdeal Cert.KernelIdeal.Gen Idealize.ShloMosaic Idealize.ShloMosaic.ValueIdx Idealize.ShloMosaic.TcCoe
open Idealize.ShloMosaic.Pipeline (Dat)

/-- The body's payload at an index: the entry scaled by its row's factor, plus the bias of its column, clamped below at
    zero (the maximum with the zero scalar). -/
theorem pay3_apply (x0 : Vec Ideal S5000x128 .f32) (x1 : Vec Ideal S5000x1 .f32) (x2 : Vec Ideal S1x128 .f32) (p : Fin 5000) (q : Fin 128) :
    k3_pay1 (F := Ideal) x0 x1 x2 (ix2 p q) = max (x0 (ix2 p q) * x1 (ix2 p (0 : Fin 1)) + x2 (ix2 (0 : Fin 1) q)) 0 := by
  unfold k3_pay1
  show max (shapeCast S5000x128 x0 shapeCasts_S5000x128_S5000x128 (ix2 p q)
        * broadcastTo S5000x128 (shapeCast S5000x1 x1 shapeCasts_S5000x1_S5000x1) broadcasts_S5000x1_S5000x128 (ix2 p q)
      + broadcastTo S5000x128 (shapeCast S1x128 x2 shapeCasts_S1x128_S1x128) broadcasts_S1x128_S5000x128 (ix2 p q))
    (Ideal.ofBits .f32 0x00000000#32) = _
  rw [Ideal.ofBits_zero_f32, shapeCast_self, shapeCast_self, shapeCast_self]
  refine congrArg (max · 0) (congrArg₂ (· + ·) (congrArg (x0 (ix2 p q) * ·) ?_) ?_)
  · exact Cert.Lib.Layout.broadcastTo_a1_ab_apply x1 broadcasts_S5000x1_S5000x128 p q
  · exact broadcastTo_1b_ab_apply x2 broadcasts_S1x128_S5000x128 p q

/-! ## From blocks to the array -/

/-- The entry (p, q) of the result: a(p, q) · d(p, 0) + b(0, q), clamped below at zero. -/
def g3 (a : S100000x128.Idx → EReal) (d : S100000x1.Idx → EReal) (b : S1x128.Idx → EReal) : S100000x128.Idx → EReal :=
  fun j => max (a j * d (ix2 (⟨(j 0).val, (j 0).isLt⟩ : Fin 100000) (0 : Fin 1)) + b (ix2 (0 : Fin 1) (⟨(j 1).val, (j 1).isLt⟩ : Fin 128))) 0

/-- g3 at the entry (r, q). -/
theorem g3_ix2 (a : S100000x128.Idx → EReal) (d : S100000x1.Idx → EReal) (b : S1x128.Idx → EReal) (r : Fin 100000) (q : Fin 128) :
    g3 a d b (ix2 r q) = max (a (ix2 r q) * d (ix2 r (0 : Fin 1)) + b (ix2 (0 : Fin 1) q)) 0 := rfl

/-- The printed index maps, decided over the grid: the row blocks of a, of the column and of the output move together,
    block t at point t; the bias row's block is the whole row. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- Row p of point t's block of a is row 5000 t + p of a. -/
theorem blk3_0 (c : Dev nD) (t : Fin cfg3.N) (p : Fin 5000) (q : Fin 128) (hr : t.val * 5000 + p.val < 100000) :
    iblk3 V c 0 t (ix2 p q) = V c main_v50 (ix2 (⟨t.val * 5000 + p.val, hr⟩ : Fin 100000) q) := by
  obtain ⟨e00, e01, e10, e11, e20, e21, e30, e31⟩ := idx_facts3 t
  show V c main_v50 (((cfg3.win 0).blk t).view.emb (ix2 p q)) = V c main_v50 _
  refine congrArg _ (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * q.val = q.val; omega

/-- Row p of point t's block of the column is its row 5000 t + p. -/
theorem blk3_1 (c : Dev nD) (t : Fin cfg3.N) (p : Fin 5000) (u : Fin 1) (hr : t.val * 5000 + p.val < 100000) :
    iblk3 V c 1 t (ix2 p u) = V c main_v15 (ix2 (⟨t.val * 5000 + p.val, hr⟩ : Fin 100000) u) := by
  obtain ⟨e00, e01, e10, e11, e20, e21, e30, e31⟩ := idx_facts3 t
  show V c main_v15 (((cfg3.win 1).blk t).view.emb (ix2 p u)) = V c main_v15 _
  refine congrArg _ (funext fun a => Fin.ext ?_)
  match a with
  | ⟨0, _⟩ => show win3_1.index t (0 : Fin 2) * 5000 + 1 * p.val = t.val * 5000 + p.val; omega
  | ⟨1, _⟩ => show win3_1.index t (1 : Fin 2) * 1 + 1 * u.val = u.val; omega

/-- Every point's block of the bias row is the row. -/
theorem blk3_2 (c : Dev nD) (t : Fin cfg3.N) (u : Fin 1) (q : Fin 128) :
    iblk3 V c 2 t (ix2 u q) = V c main_v51 (ix2 u q) := by
  obtain ⟨e00, e01, e10, e11, e20, e21, e30, e31⟩ := idx_facts3 t
  show V c main_v51 (((cfg3.win 2).blk t).view.emb (ix2 u q)) = V c main_v51 _
  refine congrArg _ (funext fun a => Fin.ext ?_)
  match a with
  | ⟨0, _⟩ => show win3_2.index t (0 : Fin 2) * 1 + 1 * u.val = u.val; omega
  | ⟨1, _⟩ => show win3_2.index t (1 : Fin 2) * 128 + 1 * q.val = q.val; omega

/-- Entry (p, q) of point t's output block sits at (5000 t + p, q) of the array. -/
theorem emb3_3 (t : Fin cfg3.N) (p : Fin 5000) (q : Fin 128) (hr : t.val * 5000 + p.val < 100000) :
    ((cfg3.win 3).blk t).view.emb (ix2 p q) = (ix2 (⟨t.val * 5000 + p.val, hr⟩ : Fin 100000) q : S100000x128.Idx) := by
  obtain ⟨e00, e01, e10, e11, e20, e21, e30, e31⟩ := idx_facts3 t
  refine funext fun a => Fin.ext ?_
  match a with
  | ⟨0, _⟩ => show win3_3.index t (0 : Fin 2) * 5000 + 1 * p.val = t.val * 5000 + p.val; omega
  | ⟨1, _⟩ => show win3_3.index t (1 : Fin 2) * 128 + 1 * q.val = q.val; omega

/-- What point t writes back is block t of g3 of the arrays as the region finds them. -/
theorem flushed3_3_eq (c : Dev nD) (t : Fin cfg3.N) :
    (dat3 (F := Ideal) V c).flushed 3 t
      = ((cfg3.win 3).blk t).view.read (Elt Ideal) (g3 (V c main_v50) (V c main_v15) (V c main_v51)) := by
  show (cfg3.win 3).cut (grid3.coords t) ((dat3 V c).after 3 t) = _
  rw [after3_3]
  unfold out3_3
  rw [View.canon_unit_zero hz2]
  simp only [View.ld_unit_zero (S := S5000x128) hz2, View.ld_unit_zero (S := S5000x1) hz2, View.ld_unit_zero (S := S1x128) hz2]
  have ht : t.val < 20 := lt_of_lt_of_eq t.isLt N_3
  funext j
  obtain ⟨p, q, rfl⟩ : ∃ (p : Fin 5000) (q : Fin 128), j = ix2 p q := ⟨j 0, j 1, eq_ix2 j⟩
  have hr : t.val * 5000 + p.val < 100000 := by have := p.isLt; omega
  refine (pay3_apply _ _ _ p q).trans ?_
  show _ = g3 (V c main_v50) (V c main_v15) (V c main_v51) (((cfg3.win 3).blk t).view.emb (ix2 p q))
  rw [emb3_3 t p q hr, g3_ix2, blk3_0 V c t p q hr, blk3_1 V c t p 0 hr, blk3_2 V c t 0 q]

/-- An index of the array is in point t's block iff each coordinate is in the block's range on its axis. -/
theorem mem_blk3_3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v52).slice (win3_3.rect t)).set ↔ _
  rw [View.set_slice_whole, Rect.mem_set_unit]
  exact Iff.rfl

/-- Every index of the array is in some point's block: row r is in block r / 5000. -/
theorem cover3_3' (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : (i 0).val / 5000 < cfg3.N := lt_of_lt_of_eq (by omega : (i 0).val / 5000 < 20) N_3.symm
  refine ⟨⟨(i 0).val / 5000, hN⟩, flush3_3 _, ?_⟩
  obtain ⟨e00, e01, e10, e11, e20, e21, e30, e31⟩ := idx_facts3 ⟨(i 0).val / 5000, hN⟩
  rw [mem_blk3_3]
  intro a
  match a with
  | ⟨0, _⟩ => show win3_3.index _ (0 : Fin 2) * 5000 ≤ (i 0).val ∧ (i 0).val < win3_3.index _ (0 : Fin 2) * 5000 + 5000; rw [e30]; show (i 0).val / 5000 * 5000 ≤ (i 0).val ∧ (i 0).val < (i 0).val / 5000 * 5000 + 5000; omega
  | ⟨1, _⟩ => show win3_3.index _ (1 : Fin 2) * 128 ≤ (i 1).val ∧ (i 1).val < win3_3.index _ (1 : Fin 2) * 128 + 128; rw [e31]; omega

/-- THE ARRAY after the region: g3 of the arrays as the region finds them. -/
theorem final3 (c : Dev nD) :
    (dat3 (F := Ideal) V c).arrAt 3 cfg3.N = g3 (V c main_v50) (V c main_v15) (V c main_v51) :=
  (dat3 (F := Ideal) V c).arrAt_eq_of_cover 3 _ (fun t _ => flushed3_3_eq V c t) cover3_3'

end Cert.GcnValue

end
-- ==== Proof.Region4.lean ====
/-
  The value of the last kernel region, at the exact (extended-real) instance.

  The region has one grid point, and every window's block is its whole array: x ([256, 128]), a first matrix w1
  ([128, 64]) with its bias row b1 ([1, 64]), a second matrix w2 ([64, 10]) with its bias row b2 ([1, 10]), and the
  output ([256, 10]). Its body multiplies x by w1 into a zero accumulator, adds b1 to every row, takes the maximum with
  zero, multiplies the result by w2 into a zero accumulator, and adds b2 to every row; the operands of both products are
  narrowed on the way in, which at this instance changes nothing, so each product is the plain sum over its contracted
  index. So the output array ends as one function of the five arrays: entry (p, q) is
  (Σ_k max ((Σ_j x(p, j) · w1(j, k)) + b1(0, k)) 0 · w2(k, q)) + b2(0, q).

  Each window's block is read at an index of its array (from the index maps decided at the one point), what the point
  writes back is its block of that function, the block covers the array, and so the array is that function.
-/
import proofs.«147315_j51419348468094_2_alg».proof.Proof.Gen.KernelIdeal.Frame
import proofs.«147315_j51419348468094_2_alg».proof.Proof.Payloads
import Idealize.ShloMosaic.Lib.Pipeline.Value
import Idealize.ShloMosaic.Lib.ValueIdx

noncomputable section

namespace Cert.GcnValue

open Cert.KernelIdeal Cert.KernelIdeal.Gen Idealize.ShloMosaic Idealize.ShloMosaic.ValueIdx Idealize.ShloMosaic.TcCoe
open Idealize.ShloMosaic.Pipeline (Dat)

private theorem hz : (![0, 0] : Fin 2 → Nat) = fun _ => 0 := funext fun a => by fin_cases a <;> rfl

/-- The entry (p, q) of the result: row p of x against w1, biased by b1, clamped below at zero, against column q of w2,
    biased by b2. -/
def g4 (x : S256x128.Idx → EReal) (w1 : S128x64.Idx → EReal) (b1 : S1x64.Idx → EReal) (w2 : S64x10.Idx → EReal)
    (b2 : S1x10.Idx → EReal) : S256x10.Idx → EReal :=
  fun j => (∑ k : Fin 64, max ((∑ i : Fin 128, x (ix2 (⟨(j 0).val, (j 0).isLt⟩ : Fin 256) i) * w1 (ix2 i k))
      + b1 (ix2 (0 : Fin 1) k)) 0 * w2 (ix2 k (⟨(j 1).val, (j 1).isLt⟩ : Fin 10)))
    + b2 (ix2 (0 : Fin 1) (⟨(j 1).val, (j 1).isLt⟩ : Fin 10))

/-- g4 at the entry (r, q). -/
theorem g4_ix2 (x : S256x128.Idx → EReal) (w1 : S128x64.Idx → EReal) (b1 : S1x64.Idx → EReal) (w2 : S64x10.Idx → EReal)
    (b2 : S1x10.Idx → EReal) (r : Fin 256) (q : Fin 10) :
    g4 x w1 b1 w2 b2 (ix2 r q)
      = (∑ k : Fin 64, max ((∑ i : Fin 128, x (ix2 r i) * w1 (ix2 i k)) + b1 (ix2 (0 : Fin 1) k)) 0 * w2 (ix2 k q))
        + b2 (ix2 (0 : Fin 1) q) := rfl

/-- The printed index maps, decided at the one grid point: every window's block is block (0, 0), the whole array. -/
theorem idx_facts4 : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

variable (V : (c : Dev nD) → (b : Ref sig .tc) → Buf (Elt Ideal) ((c : Thread nD τ).loc b))

/-- Every point's block of x is x. -/
theorem blk4_0 (c : Dev nD) (t : Fin cfg4.N) (p : Fin 256) (q : Fin 128) :
    iblk4 V c 0 t (ix2 p q) = V c main_v64 (ix2 p q) := by
  obtain ⟨e00, e01, e10, e11, e20, e21, e30, e31, e40, e41, e50, e51⟩ := idx_facts4 t
  show V c main_v64 (((cfg4.win 0).blk t).view.emb (ix2 p q)) = V c main_v64 _
  refine congrArg _ (funext fun a => Fin.ext ?_)
  match a with
  | ⟨0, _⟩ => show win4_0.index t (0 : Fin 2) * 256 + 1 * p.val = p.val; omega
  | ⟨1, _⟩ => show win4_0.index t (1 : Fin 2) * 128 + 1 * q.val = q.val; omega

/-- Every point's block of the first matrix is the matrix. -/
theorem blk4_1 (c : Dev nD) (t : Fin cfg4.N) (p : Fin 128) (q : Fin 64) :
    iblk4 V c 1 t (ix2 p q) = V c main_arg9 (ix2 p q) := by
  obtain ⟨e00, e01, e10, e11, e20, e21, e30, e31, e40, e41, e50, e51⟩ := idx_facts4 t
  show V c main_arg9 (((cfg4.win 1).blk t).view.emb (ix2 p q)) = V c main_arg9 _
  refine congrArg _ (funext fun a => Fin.ext ?_)
  match a with
  | ⟨0, _⟩ => show win4_1.index t (0 : Fin 2) * 128 + 1 * p.val = p.val; omega
  | ⟨1, _⟩ => show win4_1.index t (1 : Fin 2) * 64 + 1 * q.val = q.val; omega

/-- Every point's block of the first bias row is the row. -/
theorem blk4_2 (c : Dev nD) (t : Fin cfg4.N) (p : Fin 1) (q : Fin 64) :
    iblk4 V c 2 t (ix2 p q) = V c main_v65 (ix2 p q) := by
  obtain ⟨e00, e01, e10, e11, e20, e21, e30, e31, e40, e41, e50, e51⟩ := idx_facts4 t
  show V c main_v65 (((cfg4.win 2).blk t).view.emb (ix2 p q)) = V c main_v65 _
  refine congrArg _ (funext fun a => Fin.ext ?_)
  match a with
  | ⟨0, _⟩ => show win4_2.index t (0 : Fin 2) * 1 + 1 * p.val = p.val; omega
  | ⟨1, _⟩ => show win4_2.index t (1 : Fin 2) * 64 + 1 * q.val = q.val; omega

/-- Every point's block of the second matrix is the matrix. -/
theorem blk4_3 (c : Dev nD) (t : Fin cfg4.N) (p : Fin 64) (q : Fin 10) :
    iblk4 V c 3 t (ix2 p q) = V c main_arg11 (ix2 p q) := by
  obtain ⟨e00, e01, e10, e11, e20, e21, e30, e31, e40, e41, e50, e51⟩ := idx_facts4 t
  show V c main_arg11 (((cfg4.win 3).blk t).view.emb (ix2 p q)) = V c main_arg11 _
  refine congrArg _ (funext fun a => Fin.ext ?_)
  match a with
  | ⟨0, _⟩ => show win4_3.index t (0 : Fin 2) * 64 + 1 * p.val = p.val; omega
  | ⟨1, _⟩ => show win4_3.index t (1 : Fin 2) * 10 + 1 * q.val = q.val; omega

/-- Every point's block of the second bias row is the row. -/
theorem blk4_4 (c : Dev nD) (t : Fin cfg4.N) (p : Fin 1) (q : Fin 10) :
    iblk4 V c 4 t (ix2 p q) = V c main_v66 (ix2 p q) := by
  obtain ⟨e00, e01, e10, e11, e20, e21, e30, e31, e40, e41, e50, e51⟩ := idx_facts4 t
  show V c main_v66 (((cfg4.win 4).blk t).view.emb (ix2 p q)) = V c main_v66 _
  refine congrArg _ (funext fun a => Fin.ext ?_)
  match a with
  | ⟨0, _⟩ => show win4_4.index t (0 : Fin 2) * 1 + 1 * p.val = p.val; omega
  | ⟨1, _⟩ => show win4_4.index t (1 : Fin 2) * 10 + 1 * q.val = q.val; omega

/-- Entry (p, q) of the point's output block sits at (p, q) of the array. -/
theorem emb4_5 (t : Fin cfg4.N) (p : Fin 256) (q : Fin 10) :
    ((cfg4.win 5).blk t).view.emb (ix2 p q) = (ix2 p q : S256x10.Idx) := by
  obtain ⟨e00, e01, e10, e11, e20, e21, e30, e31, e40, e41, e50, e51⟩ := idx_facts4 t
  refine funext fun a => Fin.ext ?_
  match a with
  | ⟨0, _⟩ => show win4_5.index t (0 : Fin 2) * 256 + 1 * p.val = p.val; omega
  | ⟨1, _⟩ => show win4_5.index t (1 : Fin 2) * 10 + 1 * q.val = q.val; omega

/-- What the point writes back is its block of g4 of the arrays as the region finds them. -/
theorem flushed4_5_eq (c : Dev nD) (t : Fin cfg4.N) :
    (dat4 (F := Ideal) V c).flushed 5 t
      = ((cfg4.win 5).blk t).view.read (Elt Ideal)
          (g4 (V c main_v64) (V c main_arg9) (V c main_v65) (V c main_arg11) (V c main_v66)) := by
  show (cfg4.win 5).cut (grid4.coords t) ((dat4 V c).after 5 t) = _
  rw [after4_5]
  unfold out4_5
  rw [View.canon_unit_zero hz]
  simp only [View.ld_unit_zero (S := S256x128) hz, View.ld_unit_zero (S := S128x64) hz, View.ld_unit_zero (S := S1x64) hz,
    View.ld_unit_zero (S := S64x10) hz, View.ld_unit_zero (S := S1x10) hz]
  funext j
  obtain ⟨p, q, rfl⟩ : ∃ (p : Fin 256) (q : Fin 10), j = ix2 p q := ⟨j 0, j 1, eq_ix2 j⟩
  refine (k4_pay1_apply _ _ _ _ _ p q).trans ?_
  show _ = g4 (V c main_v64) (V c main_arg9) (V c main_v65) (V c main_arg11) (V c main_v66)
    (((cfg4.win 5).blk t).view.emb (ix2 p q))
  rw [emb4_5 t p q, g4_ix2, blk4_4 V c t 0 q]
  refine congrArg (· + _) (Finset.sum_congr rfl fun k _ => ?_)
  rw [blk4_2 V c t 0 k, blk4_3 V c t k q]
  refine congrArg (fun z => max (z + _) 0 * _) (Finset.sum_congr rfl fun i _ => ?_)
  rw [blk4_0 V c t p i, blk4_1 V c t i k]

/-- An index of the array is in the point's block iff each coordinate is in the block's range on its axis. -/
theorem mem_blk4_5 (t : Fin cfg4.N) (i : S256x10.Idx) :
    i ∈ ((cfg4.win 5).blk t).view.set ↔ ∀ a : Fin 2, win4_5.index t a * S256x10.size a ≤ (i a).val ∧ (i a).val < win4_5.index t a * S256x10.size a + S256x10.size a := by
  show i ∈ ((View.whole main_v67).slice (win4_5.rect t)).set ↔ _
  rw [View.set_slice_whole, Rect.mem_set_unit]
  exact Iff.rfl

/-- Every index of the array is in the one point's block. -/
theorem cover4_5' (i : S256x10.Idx) :
    ∃ t : Fin cfg4.N, (cfg4.win 5).flush t = true ∧ i ∈ ((cfg4.win 5).blk t).view.set := by
  have hi0 : (i 0).val < 256 := (i 0).isLt
  have hi1 : (i 1).val < 10 := (i 1).isLt
  refine ⟨t4_0, flush4_5 _, ?_⟩
  obtain ⟨e00, e01, e10, e11, e20, e21, e30, e31, e40, e41, e50, e51⟩ := idx_facts4 t4_0
  rw [mem_blk4_5]
  intro a
  match a with
  | ⟨0, _⟩ => show win4_5.index _ (0 : Fin 2) * 256 ≤ (i 0).val ∧ (i 0).val < win4_5.index _ (0 : Fin 2) * 256 + 256; rw [e50]; omega
  | ⟨1, _⟩ => show win4_5.index _ (1 : Fin 2) * 10 ≤ (i 1).val ∧ (i 1).val < win4_5.index _ (1 : Fin 2) * 10 + 10; rw [e51]; omega

/-- THE ARRAY after the region: g4 of the arrays as the region finds them. -/
theorem final4 (c : Dev nD) :
    (dat4 (F := Ideal) V c).arrAt 5 cfg4.N
      = g4 (V c main_v64) (V c main_arg9) (V c main_v65) (V c main_arg11) (V c main_v66) :=
  (dat4 (F := Ideal) V c).arrAt_eq_of_cover 5 _ (fun t _ => flushed4_5_eq V c t) cover4_5'

end Cert.GcnValue

end
-- ==== Proof.KernelValue.lean ====
/-
  The idealized kernel program's result as one function of its thirteen argument arrays, and the proof that the
  program's result array ends at it.  The function is built stage by stage, following the program: the degree
  normaliser d (a column); the first region's output (x·W₁) scaled row by row by d; its rows gathered along the
  wrapped sources and summed per target; the second region's output ((relu (agg·d + b₁))·W₂)·d; the same once
  more with W₃; the fourth region's relu (agg·d + b₃); the per-graph mean of those node features; and the
  two-layer head.  Each region's output array is the corresponding function of the arrays the region finds (the
  region modules), and what each region finds is read off the boundaries' contents (the chain module).
-/
import proofs.«147315_j51419348468094_2_alg».proof.Proof.KernelChain
import proofs.«147315_j51419348468094_2_alg».proof.Proof.Region0
import proofs.«147315_j51419348468094_2_alg».proof.Proof.Region1
import proofs.«147315_j51419348468094_2_alg».proof.Proof.Region2
import proofs.«147315_j51419348468094_2_alg».proof.Proof.Region3
import proofs.«147315_j51419348468094_2_alg».proof.Proof.Region4

set_option maxRecDepth 16384

noncomputable section

namespace Cert.GcnValue

open Cert.KernelIdeal Cert.KernelIdeal.Gen
open Idealize.ShloMosaic Idealize.ShloMosaic.TcCoe Idealize.ShloMosaic.ValueIdx Idealize.ShloMosaic.StableHlo
open Idealize.SL.Sem

/-! ## The stages -/

/-- The degree normaliser as a column. -/
def kD2 (x1 : (⟨Cert.ReferenceIdeal.S2x1600000, .i32⟩ : BufTy).Contents (Elt Ideal)) : S100000x1.Idx → EReal :=
  shapeCast S100000x1 (Cert.ReferenceIdeal.ReadP.val_main_v14 (F := Ideal) x1) shapeCasts_S100000_S100000x1
/-- The first region's output: the rows of x·W₁, each scaled by its normaliser. -/
def kH1 (x0 : (⟨Cert.ReferenceIdeal.S100000x3, .f32⟩ : BufTy).Contents (Elt Ideal)) (x1 : (⟨Cert.ReferenceIdeal.S2x1600000, .i32⟩ : BufTy).Contents (Elt Ideal)) (x3 : (⟨Cert.ReferenceIdeal.S3x32, .f32⟩ : BufTy).Contents (Elt Ideal)) : S100000x32.Idx → EReal := g0 x0 x3 (kD2 x1)
/-- Those rows gathered along the sources and summed per target. -/
def kA1 (x0 : (⟨Cert.ReferenceIdeal.S100000x3, .f32⟩ : BufTy).Contents (Elt Ideal)) (x1 : (⟨Cert.ReferenceIdeal.S2x1600000, .i32⟩ : BufTy).Contents (Elt Ideal)) (x3 : (⟨Cert.ReferenceIdeal.S3x32, .f32⟩ : BufTy).Contents (Elt Ideal)) : S100000x32.Idx → EReal :=
  Host.scatterAdd (F := Ideal) (φ := .f32) Cert.ReferenceIdeal.scatter_S100000x32_S1700000x1_S1700000x32_1_0_0_1 (Cert.ReferenceIdeal.ReadP.val_main_v41 (F := Ideal)) (Cert.ReferenceIdeal.ReadP.val_main_v42 (F := Ideal) x1)
    (Host.gather Cert.ReferenceIdeal.gather_S100000x32_S1700000x1_S1700000x32_1_0_n_n_0_1_132 (kH1 x0 x1 x3) (Cert.ReferenceIdeal.ReadP.val_main_v37 (F := Ideal) x1))
/-- The second region's output. -/
def kH2 (x0 : (⟨Cert.ReferenceIdeal.S100000x3, .f32⟩ : BufTy).Contents (Elt Ideal)) (x1 : (⟨Cert.ReferenceIdeal.S2x1600000, .i32⟩ : BufTy).Contents (Elt Ideal)) (x3 : (⟨Cert.ReferenceIdeal.S3x32, .f32⟩ : BufTy).Contents (Elt Ideal)) (x4 : (⟨Cert.ReferenceIdeal.S32, .f32⟩ : BufTy).Contents (Elt Ideal)) (x5 : (⟨Cert.ReferenceIdeal.S32x64, .f32⟩ : BufTy).Contents (Elt Ideal)) : S100000x64.Idx → EReal :=
  g1 (kA1 x0 x1 x3) (kD2 x1) (shapeCast S1x32 x4 shapeCasts_S32_S1x32) x5
def kA2 (x0 : (⟨Cert.ReferenceIdeal.S100000x3, .f32⟩ : BufTy).Contents (Elt Ideal)) (x1 : (⟨Cert.ReferenceIdeal.S2x1600000, .i32⟩ : BufTy).Contents (Elt Ideal)) (x3 : (⟨Cert.ReferenceIdeal.S3x32, .f32⟩ : BufTy).Contents (Elt Ideal)) (x4 : (⟨Cert.ReferenceIdeal.S32, .f32⟩ : BufTy).Contents (Elt Ideal)) (x5 : (⟨Cert.ReferenceIdeal.S32x64, .f32⟩ : BufTy).Contents (Elt Ideal)) : S100000x64.Idx → EReal :=
  Host.scatterAdd (F := Ideal) (φ := .f32) Cert.ReferenceIdeal.scatter_S100000x64_S1700000x1_S1700000x64_1_0_0_1 (Cert.ReferenceIdeal.ReadP.val_main_v58 (F := Ideal)) (Cert.ReferenceIdeal.ReadP.val_main_v59 (F := Ideal) x1)
    (Host.gather Cert.ReferenceIdeal.gather_S100000x64_S1700000x1_S1700000x64_1_0_n_n_0_1_164 (kH2 x0 x1 x3 x4 x5) (Cert.ReferenceIdeal.ReadP.val_main_v54 (F := Ideal) x1))
/-- The third region's output. -/
def kH3 (x0 : (⟨Cert.ReferenceIdeal.S100000x3, .f32⟩ : BufTy).Contents (Elt Ideal)) (x1 : (⟨Cert.ReferenceIdeal.S2x1600000, .i32⟩ : BufTy).Contents (Elt Ideal)) (x3 : (⟨Cert.ReferenceIdeal.S3x32, .f32⟩ : BufTy).Contents (Elt Ideal)) (x4 : (⟨Cert.ReferenceIdeal.S32, .f32⟩ : BufTy).Contents (Elt Ideal)) (x5 : (⟨Cert.ReferenceIdeal.S32x64, .f32⟩ : BufTy).Contents (Elt Ideal)) (x6 : (⟨Cert.ReferenceIdeal.S64, .f32⟩ : BufTy).Contents (Elt Ideal)) (x7 : (⟨Cert.ReferenceIdeal.S64x128, .f32⟩ : BufTy).Contents (Elt Ideal)) : S100000x128.Idx → EReal :=
  g2 (kA2 x0 x1 x3 x4 x5) (kD2 x1) (shapeCast S1x64 x6 shapeCasts_S64_S1x64) x7
def kA3 (x0 : (⟨Cert.ReferenceIdeal.S100000x3, .f32⟩ : BufTy).Contents (Elt Ideal)) (x1 : (⟨Cert.ReferenceIdeal.S2x1600000, .i32⟩ : BufTy).Contents (Elt Ideal)) (x3 : (⟨Cert.ReferenceIdeal.S3x32, .f32⟩ : BufTy).Contents (Elt Ideal)) (x4 : (⟨Cert.ReferenceIdeal.S32, .f32⟩ : BufTy).Contents (Elt Ideal)) (x5 : (⟨Cert.ReferenceIdeal.S32x64, .f32⟩ : BufTy).Contents (Elt Ideal)) (x6 : (⟨Cert.ReferenceIdeal.S64, .f32⟩ : BufTy).Contents (Elt Ideal)) (x7 : (⟨Cert.ReferenceIdeal.S64x128, .f32⟩ : BufTy).Contents (Elt Ideal)) : S100000x128.Idx → EReal :=
  Host.scatterAdd (F := Ideal) (φ := .f32) Cert.ReferenceIdeal.scatter_S100000x128_S1700000x1_S1700000x128_1_0_0_1 (Cert.ReferenceIdeal.ReadP.val_main_v75 (F := Ideal)) (Cert.ReferenceIdeal.ReadP.val_main_v76 (F := Ideal) x1)
    (Host.gather Cert.ReferenceIdeal.gather_S100000x128_S1700000x1_S1700000x128_1_0_n_n_0_1_1128 (kH3 x0 x1 x3 x4 x5 x6 x7) (Cert.ReferenceIdeal.ReadP.val_main_v71 (F := Ideal) x1))
/-- The fourth region's output: the node features after the third layer. -/
def kH (x0 : (⟨Cert.ReferenceIdeal.S100000x3, .f32⟩ : BufTy).Contents (Elt Ideal)) (x1 : (⟨Cert.ReferenceIdeal.S2x1600000, .i32⟩ : BufTy).Contents (Elt Ideal)) (x3 : (⟨Cert.ReferenceIdeal.S3x32, .f32⟩ : BufTy).Contents (Elt Ideal)) (x4 : (⟨Cert.ReferenceIdeal.S32, .f32⟩ : BufTy).Contents (Elt Ideal)) (x5 : (⟨Cert.ReferenceIdeal.S32x64, .f32⟩ : BufTy).Contents (Elt Ideal)) (x6 : (⟨Cert.ReferenceIdeal.S64, .f32⟩ : BufTy).Contents (Elt Ideal)) (x7 : (⟨Cert.ReferenceIdeal.S64x128, .f32⟩ : BufTy).Contents (Elt Ideal)) (x8 : (⟨Cert.ReferenceIdeal.S128, .f32⟩ : BufTy).Contents (Elt Ideal)) : S100000x128.Idx → EReal :=
  g3 (kA3 x0 x1 x3 x4 x5 x6 x7) (kD2 x1) (shapeCast S1x128 x8 shapeCasts_S128_S1x128)
/-- The per-graph mean of the node features. -/
def kP (x0 : (⟨Cert.ReferenceIdeal.S100000x3, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S3x32, .f32⟩ : BufTy).Contents (Elt Ideal)) (x4 : (⟨Cert.ReferenceIdeal.S32, .f32⟩ : BufTy).Contents (Elt Ideal)) (x5 : (⟨Cert.ReferenceIdeal.S32x64, .f32⟩ : BufTy).Contents (Elt Ideal)) (x6 : (⟨Cert.ReferenceIdeal.S64, .f32⟩ : BufTy).Contents (Elt Ideal)) (x7 : (⟨Cert.ReferenceIdeal.S64x128, .f32⟩ : BufTy).Contents (Elt Ideal)) (x8 : (⟨Cert.ReferenceIdeal.S128, .f32⟩ : BufTy).Contents (Elt Ideal)) : S256x128.Idx → EReal :=
  Host.divf (F := Ideal) (φ := .f32) (Host.scatterAdd (F := Ideal) (φ := .f32) Cert.ReferenceIdeal.scatter_S256x128_S100000x1_S100000x128_1_0_0_1 (Cert.ReferenceIdeal.ReadP.val_main_v82 (F := Ideal)) (Cert.ReferenceIdeal.ReadP.val_main_v83 (F := Ideal) x2)
    (kH x0 x1 x3 x4 x5 x6 x7 x8)) (Cert.ReferenceIdeal.ReadP.val_main_v92 (F := Ideal) x2)
/-- The program's result. -/
def kOut (x0 : (⟨Cert.ReferenceIdeal.S100000x3, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S3x32, .f32⟩ : BufTy).Contents (Elt Ideal)) (x4 : (⟨Cert.ReferenceIdeal.S32, .f32⟩ : BufTy).Contents (Elt Ideal)) (x5 : (⟨Cert.ReferenceIdeal.S32x64, .f32⟩ : BufTy).Contents (Elt Ideal)) (x6 : (⟨Cert.ReferenceIdeal.S64, .f32⟩ : BufTy).Contents (Elt Ideal)) (x7 : (⟨Cert.ReferenceIdeal.S64x128, .f32⟩ : BufTy).Contents (Elt Ideal)) (x8 : (⟨Cert.ReferenceIdeal.S128, .f32⟩ : BufTy).Contents (Elt Ideal)) (x9 : (⟨Cert.ReferenceIdeal.S128x64, .f32⟩ : BufTy).Contents (Elt Ideal)) (x10 : (⟨Cert.ReferenceIdeal.S64, .f32⟩ : BufTy).Contents (Elt Ideal)) (x11 : (⟨Cert.ReferenceIdeal.S64x10, .f32⟩ : BufTy).Contents (Elt Ideal)) (x12 : (⟨Cert.ReferenceIdeal.S10, .f32⟩ : BufTy).Contents (Elt Ideal)) : S256x10.Idx → EReal :=
  g4 (kP x0 x1 x2 x3 x4 x5 x6 x7 x8) x9 (shapeCast S1x64 x10 shapeCasts_S64_S1x64) x11 (shapeCast S1x10 x12 shapeCasts_S10_S1x10)

/-! ## The result array ends at the function -/

variable (m : (ℓ : Loc nD τ sig) → Buf (Elt Ideal) ℓ) (ρ : Dev nD → PrngReg)

/-- The first region's output array. -/
theorem out_region0 (c : Dev nD) : W4 m ρ c (Proc.devRef .tc main_v16) = kH1 (m ((c : Thread nD τ).loc main_arg0)) (m ((c : Thread nD τ).loc main_arg1)) (m ((c : Thread nD τ).loc main_arg3)) := by
  refine (W4_arr m ρ c 3).trans ((final0 (V3 m ρ) c).trans ?_)
  have h0 : V3 m ρ c main_arg0 = (m ((c : Thread nD τ).loc main_arg0)) := W3_arg0 m ρ c
  have h3 : V3 m ρ c main_arg3 = (m ((c : Thread nD τ).loc main_arg3)) := W3_arg3 m ρ c
  have h15 : V3 m ρ c main_v15 = kD2 (m ((c : Thread nD τ).loc main_arg1)) := W3_v15 m ρ c
  rw [h0, h3, h15]
  rfl

/-- The second region's output array. -/
theorem out_region1 (c : Dev nD) : W6 m ρ c (Proc.devRef .tc main_v28) = kH2 (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 4).trans ((final1 (V5 m ρ) c).trans ?_)
  have h26 : V5 m ρ c main_v26 = kA1 (m ((c : Thread nD τ).loc main_arg0)) (m ((c : Thread nD τ).loc main_arg1)) (m ((c : Thread nD τ).loc main_arg3)) := W5_v26 m ρ c _ (out_region0 m ρ c)
  have h15 : V5 m ρ c main_v15 = kD2 (m ((c : Thread nD τ).loc main_arg1)) := W5_v15 m ρ c
  have h27 : V5 m ρ c main_v27 = shapeCast S1x32 (m ((c : Thread nD τ).loc main_arg4)) shapeCasts_S32_S1x32 := W5_v27 m ρ c
  have h5 : V5 m ρ c main_arg5 = (m ((c : Thread nD τ).loc main_arg5)) := W5_arg5 m ρ c
  rw [h26, h15, h27, h5]
  rfl

/-- The third region's output array. -/
theorem out_region2 (c : Dev nD) : W8 m ρ c (Proc.devRef .tc main_v40) = kH3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 4).trans ((final2 (V7 m ρ) c).trans ?_)
  have h38 : V7 m ρ c main_v38 = kA2 (m ((c : Thread nD τ).loc main_arg0)) (m ((c : Thread nD τ).loc main_arg1)) (m ((c : Thread nD τ).loc main_arg3)) (m ((c : Thread nD τ).loc main_arg4)) (m ((c : Thread nD τ).loc main_arg5)) := W7_v38 m ρ c _ (out_region1 m ρ c)
  have h15 : V7 m ρ c main_v15 = kD2 (m ((c : Thread nD τ).loc main_arg1)) := W7_v15 m ρ c
  have h39 : V7 m ρ c main_v39 = shapeCast S1x64 (m ((c : Thread nD τ).loc main_arg6)) shapeCasts_S64_S1x64 := W7_v39 m ρ c
  have h7 : V7 m ρ c main_arg7 = (m ((c : Thread nD τ).loc main_arg7)) := W7_arg7 m ρ c
  rw [h38, h15, h39, h7]
  rfl

/-- The fourth region's output array. -/
theorem out_region3 (c : Dev nD) : W10 m ρ c (Proc.devRef .tc main_v52) = kH (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 3).trans ((final3 (V9 m ρ) c).trans ?_)
  have h50 : V9 m ρ c main_v50 = kA3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := W9_v50 m ρ c _ (out_region2 m ρ c)
  have h15 : V9 m ρ c main_v15 = kD2 (m ((c : Thread nD τ).loc main_arg1)) := W9_v15 m ρ c
  have h51 : V9 m ρ c main_v51 = shapeCast S1x128 (m ((c : Thread nD τ).loc main_arg8)) shapeCasts_S128_S1x128 := W9_v51 m ρ c
  rw [h50, h15, h51]
  rfl

/-- The program's result array. -/
theorem kernel_value (c : Dev nD) : W12 m ρ c (Proc.devRef .tc main_v67) = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W12_arr m ρ c 5).trans ((final4 (V11 m ρ) c).trans ?_)
  have h64 : V11 m ρ c main_v64 = kP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := W11_v64 m ρ c _ (out_region3 m ρ c)
  have h9 : V11 m ρ c main_arg9 = (m ((c : Thread nD τ).loc main_arg9)) := W11_arg9 m ρ c
  have h65 : V11 m ρ c main_v65 = shapeCast S1x64 (m ((c : Thread nD τ).loc main_arg10)) shapeCasts_S64_S1x64 := W11_v65 m ρ c
  have h11 : V11 m ρ c main_arg11 = (m ((c : Thread nD τ).loc main_arg11)) := W11_arg11 m ρ c
  have h66 : V11 m ρ c main_v66 = shapeCast S1x10 (m ((c : Thread nD τ).loc main_arg12)) shapeCasts_S10_S1x10 := W11_v66 m ρ c
  rw [h64, h9, h65, h11, h66]
  rfl

end Cert.GcnValue

end
-- ==== Proof.LibRowGatherScatter.lean ====
/-
  Gathering table rows along an index list, and scatter-adding rows (or scalars) back along one, read at an index.

  A rows gather of an [N, C] table at E start indices (an [E, 1] integer array) returns at (e, k) the table's
  entry (r, k) where r is the e-th start index read as a signed integer and clamped into [0, N − 1].  A rows
  scatter-add of [E, C] updates into an [N, C] operand leaves at (n, k) the operand's entry plus the sum of the
  updates (e, k) over the edges e whose index, read signed and NOT clamped, is exactly n; the rank-one version
  scatters E scalars into N cells the same way.  All three are stated for the dimension numbers jax emits for
  x[idx] and for segment_sum, with the shapes' extents as parameters.
-/
import Idealize.ShloMosaic.PureOps.Ideal
import Idealize.ShloMosaic.Lib.ValueIdx

noncomputable section

open scoped BigOperators

namespace Cert.Lib.RowOps

open Idealize.ShloMosaic Idealize.ShloMosaic.ValueIdx

/-- The dimension numbers of a rows gather: operand [N, C], start indices [E, 1], result [E, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The rows gather at (e, k): the table at the e-th start index, read signed and clamped into [0, N − 1], column k. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 (⟨min (idx (ix2 e (0 : Fin 1))).toInt.toNat (N - 1), by omega⟩ : Fin N) k) := by
  unfold Host.gather
  refine congrArg x ?_
  funext a
  refine Fin.ext ?_
  match a with
  | ⟨0, _⟩ =>
    show (rowGatherDims N E C wf).start (ix2 e k) idx 0 + (rowGatherDims N E C wf).batchCoord (ix2 e k) 0
        + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
        + (rowGatherDims N E C wf).offCoord (ix2 e k) 1 = _
    rw [GatherDims.batchCoord_eq_zero _ _ _ List.not_mem_nil]
    have hstart : (rowGatherDims N E C wf).start (ix2 e k) idx 1 = 0 := by
      unfold GatherDims.start
      rw [dif_neg (show (1 : Fin 2) ∉ ([0] : List (Fin 2)) by decide)]
    have hmem : (1 : Fin 2) ∈ (rowGatherDims N E C wf).sKept :=
      (GatherDims.mem_sKept _ _).mpr ⟨(show (1 : Fin 2) ∉ ([0] : List (Fin 2)) by decide), List.not_mem_nil⟩
    have hoff : (rowGatherDims N E C wf).offCoord (ix2 e k) 1 = k.val := by
      unfold GatherDims.offCoord
      rw [dif_pos hmem]
      rfl
    rw [hstart, hoff]
    simp

/-- An update index lands at operand index i exactly when, on every axis, the signed start plus the window
    coordinate is the coordinate of i. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · next h =>
    rw [Option.some.injEq]
    constructor
    · intro hf a
      rw [← hf]
      have := (h a).1
      simp only [Int.toNat_of_nonneg this]
    · intro hall
      funext a
      refine Fin.ext ?_
      show (d.start j idx a + (d.window j a : Int)).toNat = (i a).val
      rw [hall a]
      exact Int.toNat_natCast _
  · next h =>
    constructor
    · intro hf
      exact absurd hf (by simp)
    · intro hall
      exfalso
      apply h
      intro a
      rw [hall a]
      exact ⟨Int.natCast_nonneg _, by exact_mod_cast (i a).isLt⟩

/-- The dimension numbers of a rows scatter: operand [N, C], scatter indices [E, 1], updates [E, C]. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the row axis the window of update (e, c) starts at the e-th index, read signed. -/
theorem rowScatter_start0 :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis every window starts at 0. -/
theorem rowScatter_start1 : (rowScatterDims N E C wf).start (ix2 e c) idx 1 = 0 := by
  unfold ScatterDims.start
  rw [dif_neg (show (1 : Fin 2) ∉ ([0] : List (Fin 2)) by decide)]

/-- The row axis is an inserted axis: the window coordinate there is 0. -/
theorem rowScatter_window0 : (rowScatterDims N E C wf).window (ix2 e c) 0 = 0 := by
  unfold ScatterDims.window
  have h0 : (0 : Fin 2) ∉ (rowScatterDims N E C wf).sKept :=
    (show (0 : Fin 2) ∉ (List.finRange 2).filter (· ∉ ([0] : List (Fin 2))) by decide)
  rw [dif_neg h0]

/-- On the column axis the window coordinate of update (e, c) is c. -/
theorem rowScatter_window1 : (rowScatterDims N E C wf).window (ix2 e c) 1 = c.val := by
  unfold ScatterDims.window
  have h1 : (1 : Fin 2) ∈ (rowScatterDims N E C wf).sKept :=
    (show (1 : Fin 2) ∈ (List.finRange 2).filter (· ∉ ([0] : List (Fin 2))) by decide)
  rw [dif_pos h1]
  rfl

/-- An update (e, c) of the rows scatter lands at (n, k) exactly when its index, read signed, is n and c = k. -/
theorem rowScatter_resultIdx?_iff (n : Fin N) (k : Fin C) :
    (rowScatterDims N E C wf).resultIdx? (ix2 e c) idx = some (ix2 n k)
      ↔ (idx (ix2 e (0 : Fin 1))).toInt = (n.val : Int) ∧ c = k := by
  rw [resultIdx?_eq_some_iff, Fin.forall_fin_two, rowScatter_start0, rowScatter_start1, rowScatter_window0,
    rowScatter_window1]
  show (idx (ix2 e (0 : Fin 1))).toInt + ((0 : Nat) : Int) = (n.val : Int) ∧ (0 : Int) + (c.val : Int) = (k.val : Int) ↔ _
  constructor
  · rintro ⟨h0, h1⟩
    exact ⟨by simpa using h0, Fin.ext (by omega)⟩
  · rintro ⟨h0, rfl⟩
    exact ⟨by simpa using h0, by simp⟩

end Rows

/-- The rows scatter-add at (n, k): the operand there plus the updates (e, k) of the edges whose index is n. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (k : Fin C) :
    Ideal.hostScatterAdd (rowScatterDims N E C wf) x idx upd (ix2 n k)
      = x (ix2 n k) + ∑ e ∈ Finset.univ.filter (fun e : Fin E => (idx (ix2 e (0 : Fin 1))).toInt = (n.val : Int)),
          upd (ix2 e k) := by
  unfold Ideal.hostScatterAdd
  refine congrArg (x (ix2 n k) + ·) ?_
  rw [Finset.sum_filter, Finset.sum_filter, sum_idx2]
  refine Finset.sum_congr rfl (fun e _ => ?_)
  simp only [rowScatter_resultIdx?_iff]
  by_cases hn : (idx (ix2 e (0 : Fin 1))).toInt = (n.val : Int)
  · simp [hn]
  · simp [hn]

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scalar scatter: operand [N], scatter indices [E, 1], updates [E]. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)
  (idx : IVec ⟨2, ![E, 1]⟩ w) (e : Fin E)

/-- The window of update e starts at the e-th index, read signed. -/
theorem vecScatter_start0 :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is an inserted axis: the window coordinate there is 0. -/
theorem vecScatter_window0 : (vecScatterDims N E wf).window (ix1 e) 0 = 0 := by
  unfold ScatterDims.window
  have h0 : (0 : Fin 1) ∉ (vecScatterDims N E wf).sKept :=
    (show (0 : Fin 1) ∉ (List.finRange 1).filter (· ∉ ([0] : List (Fin 1))) by decide)
  rw [dif_neg h0]

/-- An update e of the scalar scatter lands at n exactly when its index, read signed, is n. -/
theorem vecScatter_resultIdx?_iff (n : Fin N) :
    (vecScatterDims N E wf).resultIdx? (ix1 e) idx = some (ix1 n)
      ↔ (idx (ix2 e (0 : Fin 1))).toInt = (n.val : Int) := by
  rw [resultIdx?_eq_some_iff, Fin.forall_fin_one, vecScatter_start0, vecScatter_window0]
  show (idx (ix2 e (0 : Fin 1))).toInt + ((0 : Nat) : Int) = (n.val : Int) ↔ _
  simp

end Vec

/-- The scalar scatter-add at n: the operand there plus the updates of the edges whose index is n. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Ideal.hostScatterAdd (vecScatterDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  refine congrArg (x (ix1 n) + ·) ?_
  rw [Finset.sum_filter, Finset.sum_filter, sum_idx1]
  refine Finset.sum_congr rfl (fun e _ => ?_)
  simp only [vecScatter_resultIdx?_iff]

end Cert.Lib.RowOps

end
-- ==== Proof.LibGcnAgg.lean ====
/-
  The neighbourhood sum of a graph convolution on extended reals, in two arrangements, and the proof that they
  agree whenever the node factors are non-negative reals.

  Nodes are numbered 0 … N − 1 and edges 0 … E − 1.  Edge e has a source node s(e) (the e-th entry of one index list,
  read signed and clamped into [0, N − 1]) and a target word t(e) (the e-th entry of a second list, read signed and
  NOT clamped: an edge is counted at node n exactly when t(e) = n).  A third list gives the target as a node, d(e),
  and is assumed to name n whenever t(e) = n.  With a node factor dinv and a feature table h the two arrangements are

      ( Σ_{e : t(e) = n} h(s(e), k) · dinv(s(e)) ) · dinv(n)        (rows scaled once per node, rescaled at the target)
      Σ_{e : t(e) = n} h(s(e), k) · ( dinv(s(e)) · dinv(d(e)) )     (each edge weighted by both end points' factors).

  They agree because over the edges counted at n the factor dinv(d(e)) is the constant dinv(n), multiplication of
  extended reals is commutative and associative everywhere, and multiplication by a NON-NEGATIVE REAL distributes over
  extended-real addition whatever the summands are (only 0 · ±∞ = 0 and the sign of the factor matter).  Nothing is
  assumed of the feature table: its entries may be infinite.

  The file also reads a scalar gather (operand [N], start indices [E, 1]) at an index, and restates the agreement
  over the gather and scatter-add operations themselves.
-/
import Idealize.ShloMosaic.PureOps.Ideal
import Idealize.ShloMosaic.Lib.ValueIdx
import proofs.«147315_j51419348468094_2_alg».proof.Proof.LibRowGatherScatter

noncomputable section

open scoped BigOperators

namespace Cert.Lib.GcnAgg

open Idealize.ShloMosaic Idealize.ShloMosaic.ValueIdx Cert.Lib.RowOps

/-! ## A non-negative real factor moves across a finite sum -/

/-- A finite sum of extended reals times a non-negative real is the sum of the products, whatever the summands. -/
theorem sum_mul_coe_of_nonneg {ι : Type*} (s : Finset ι) (z : ι → EReal) {r : ℝ} (hr : 0 ≤ r) :
    (∑ e ∈ s, z e) * (r : EReal) = ∑ e ∈ s, z e * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-! ## The clamped index, and the scalar gather at an index -/

/-- The e-th entry of an index list, read signed and clamped into [0, N − 1]. -/
abbrev clampIdx {N E w : Nat} (hN : 0 < N) (idx : IVec ⟨2, ![E, 1]⟩ w) (e : Fin E) : Fin N :=
  ⟨min (idx (ix2 e (0 : Fin 1))).toInt.toNat (N - 1), by omega⟩

/-- The dimension numbers of a scalar gather: operand [N], start indices [E, 1], result [E]. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The scalar gather at e: the operand at the e-th start index, read signed and clamped into [0, N − 1]. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampIdx hN idx e)) := by
  unfold Host.gather
  refine congrArg x ?_
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## The two arrangements of the neighbourhood sum -/

section Agg
variable {N E C w : Nat} (hN : 0 < N) (idxS idxD idxDw : IVec ⟨2, ![E, 1]⟩ w)
  (dinv : (⟨1, ![N]⟩ : Shape).Idx → EReal) (h : (⟨2, ![N, C]⟩ : Shape).Idx → EReal)

/-- The sum of rows scaled once per node, rescaled at the target, is the sum with each edge weighted by both end
    points' factors, when every node factor is a non-negative real and the target list names the node an edge is
    counted at.  The feature table is arbitrary. -/
theorem agg_scale_eq
    (hd : ∀ n : Fin N, ∃ r : ℝ, 0 ≤ r ∧ dinv (ix1 n) = (r : EReal))
    (hw : ∀ (e : Fin E) (n : Fin N), (idxD (ix2 e (0 : Fin 1))).toInt = (n.val : Int) →
      min (idxDw (ix2 e (0 : Fin 1))).toInt.toNat (N - 1) = n.val)
    (n : Fin N) (k : Fin C) :
    (0 + ∑ e ∈ Finset.univ.filter (fun e : Fin E => (idxD (ix2 e (0 : Fin 1))).toInt = (n.val : Int)),
        h (ix2 (clampIdx hN idxS e) k) * dinv (ix1 (clampIdx hN idxS e))) * dinv (ix1 n)
      = 0 + ∑ e ∈ Finset.univ.filter (fun e : Fin E => (idxD (ix2 e (0 : Fin 1))).toInt = (n.val : Int)),
        h (ix2 (clampIdx hN idxS e) k) * (dinv (ix1 (clampIdx hN idxS e)) * dinv (ix1 (clampIdx hN idxDw e))) := by
  obtain ⟨r, hr, hrn⟩ := hd n
  rw [zero_add, zero_add, hrn, sum_mul_coe_of_nonneg _ _ hr]
  refine Finset.sum_congr rfl (fun e he => ?_)
  have hen : clampIdx hN idxDw e = n := Fin.ext (hw e n (Finset.mem_filter.mp he).2)
  rw [hen, hrn, mul_assoc]

/-- The same over the operations: scatter-adding into zeros the gathered rows of a table scaled per node, then
    rescaling at the target, is scatter-adding the edge-weighted messages.  The scaled table and the messages are any
    arrays with the stated entries. -/
theorem scatterAdd_gather_scale_eq
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (x0 : (⟨2, ![N, C]⟩ : Shape).Idx → EReal) (hx0 : ∀ j, x0 j = 0)
    (hs : (⟨2, ![N, C]⟩ : Shape).Idx → EReal) (msg : (⟨2, ![E, C]⟩ : Shape).Idx → EReal)
    (hhs : ∀ (m : Fin N) (c : Fin C), hs (ix2 m c) = h (ix2 m c) * dinv (ix1 m))
    (hmsg : ∀ (e : Fin E) (c : Fin C), msg (ix2 e c)
      = h (ix2 (clampIdx hN idxS e) c) * (dinv (ix1 (clampIdx hN idxS e)) * dinv (ix1 (clampIdx hN idxDw e))))
    (hd : ∀ n : Fin N, ∃ r : ℝ, 0 ≤ r ∧ dinv (ix1 n) = (r : EReal))
    (hw : ∀ (e : Fin E) (n : Fin N), (idxD (ix2 e (0 : Fin 1))).toInt = (n.val : Int) →
      min (idxDw (ix2 e (0 : Fin 1))).toInt.toNat (N - 1) = n.val)
    (n : Fin N) (k : Fin C) :
    Ideal.hostScatterAdd (rowScatterDims N E C wfS) x0 idxD (Host.gather (rowGatherDims N E C wfG) hs idxS) (ix2 n k)
        * dinv (ix1 n)
      = Ideal.hostScatterAdd (rowScatterDims N E C wfS) x0 idxD msg (ix2 n k) := by
  rw [rowScatterAdd_apply, rowScatterAdd_apply, hx0]
  simp only [rowGather_apply hN, hhs, hmsg]
  exact agg_scale_eq hN idxS idxD idxDw dinv h hd hw n k

end Agg

end Cert.Lib.GcnAgg

end
-- ==== Proof.LibGcnDeg.lean ====
/-
  The in-degree of a node as a scatter-add of ones, and the reciprocal square root of the degree guarded at zero.

  Edge e is counted at node n exactly when the e-th entry of the target list, read as a signed integer, is n.
  Scatter-adding a one per edge into an array of zeros therefore leaves at node n the NUMBER of edges counted there:
  a natural number, read as a real and then as an extended real.  The node factor of a symmetric-normalised graph
  convolution is

      dinv(n) = 1 / √deg(n)   if deg(n) > 0,        0   otherwise,

  computed as a select on the comparison deg(n) > 0 between the reciprocal square root and zero.  For a count c ≥ 0
  this is the non-negative real (√c)⁻¹ when c > 0 and the real 0 when c = 0: the guard keeps the reciprocal square
  root away from its pole at zero, so the factor is always a non-negative REAL — never an infinity.
-/
import Idealize.ShloMosaic.PureOps.Ideal
import Idealize.ShloMosaic.PureOps.Ideal.Laws
import Idealize.ShloMosaic.Lib.ValueIdx
import proofs.«147315_j51419348468094_2_alg».proof.Proof.LibRowGatherScatter

noncomputable section

open scoped BigOperators

namespace Cert.Lib.GcnDeg

open Idealize.ShloMosaic Idealize.ShloMosaic.ValueIdx Cert.Lib.RowOps

/-- A sum of ones over a finite set is the number of its elements. -/
theorem sum_one_eq_card {ι : Type*} (s : Finset ι) : (∑ _e ∈ s, (1 : EReal)) = ((s.card : ℝ) : EReal) := by
  classical
  induction s using Finset.induction_on with
  | empty => simp
  | insert a s ha ih =>
    rw [Finset.sum_insert ha, ih, Finset.card_insert_of_notMem ha, Nat.cast_add, Nat.cast_one, EReal.coe_add,
      EReal.coe_one, add_comm]

/-- The edges counted at node n: those whose target entry, read signed, is n. -/
abbrev inEdges {N E w : Nat} (idx : IVec ⟨2, ![E, 1]⟩ w) (n : Fin N) : Finset (Fin E) :=
  Finset.univ.filter (fun e : Fin E => (idx (ix2 e (0 : Fin 1))).toInt = (n.val : Int))

/-- Scatter-adding ones into zeros along the target list leaves at node n the number of edges counted at n. -/
theorem degree_apply {N E w : Nat}
    (wf : ScatterDims.WF ⟨1, ![N]⟩ ⟨2, ![E, 1]⟩ ⟨1, ![E]⟩ [] [0] [0] 1)
    (z : (⟨1, ![N]⟩ : Shape).Idx → EReal) (hz : ∀ j, z j = 0) (idx : IVec ⟨2, ![E, 1]⟩ w)
    (o : (⟨1, ![E]⟩ : Shape).Idx → EReal) (ho : ∀ j, o j = 1) (n : Fin N) :
    Ideal.hostScatterAdd (vecScatterDims N E wf) z idx o (ix1 n) = (((inEdges idx n).card : ℝ) : EReal) := by
  rw [vecScatterAdd_apply, hz, zero_add]
  simp only [ho]
  exact sum_one_eq_card _

/-- The reciprocal square root of a non-negative real, guarded by "the argument is positive" with zero otherwise,
    is a non-negative real. -/
theorem guarded_rsqrt_nonneg_real {c : ℝ} (hc : 0 ≤ c) :
    ∃ r : ℝ, 0 ≤ r ∧ Scalar.select (Ideal.cmp .ogt (c : EReal) 0) (Ideal.rsqrt (c : EReal)) 0 = (r : EReal) := by
  by_cases h : 0 < c
  · refine ⟨(Real.sqrt c)⁻¹, inv_nonneg.mpr (Real.sqrt_nonneg c), ?_⟩
    have hcmp : Ideal.cmp .ogt (c : EReal) 0 = 1#1 := by
      show BitVec.ofBool (decide ((0 : EReal) < (c : EReal))) = 1#1
      rw [decide_eq_true (by exact_mod_cast h)]
      rfl
    rw [hcmp, select_one, Ideal.rsqrt_coe, if_neg (not_lt.mpr hc), if_neg h.ne']
  · have hc0 : c = 0 := le_antisymm (not_lt.mp h) hc
    subst hc0
    refine ⟨0, le_refl _, ?_⟩
    have hcmp : Ideal.cmp .ogt ((0 : ℝ) : EReal) 0 = 0#1 := by
      show BitVec.ofBool (decide ((0 : EReal) < ((0 : ℝ) : EReal))) = 0#1
      rw [decide_eq_false (by simp)]
      rfl
    rw [hcmp, select_zero]
    rfl

/-- The node factor: the guarded reciprocal square root of the degree, as the operations compute it, is a
    non-negative real at every node. -/
theorem dinv_nonneg_real {N E w : Nat}
    (wf : ScatterDims.WF ⟨1, ![N]⟩ ⟨2, ![E, 1]⟩ ⟨1, ![E]⟩ [] [0] [0] 1)
    (z : (⟨1, ![N]⟩ : Shape).Idx → EReal) (hz : ∀ j, z j = 0) (idx : IVec ⟨2, ![E, 1]⟩ w)
    (o : (⟨1, ![E]⟩ : Shape).Idx → EReal) (ho : ∀ j, o j = 1) (n : Fin N) :
    ∃ r : ℝ, 0 ≤ r ∧
      Scalar.select (Ideal.cmp .ogt (Ideal.hostScatterAdd (vecScatterDims N E wf) z idx o (ix1 n)) 0)
        (Ideal.rsqrt (Ideal.hostScatterAdd (vecScatterDims N E wf) z idx o (ix1 n))) 0 = (r : EReal) := by
  rw [degree_apply wf z hz idx o ho n]
  exact guarded_rsqrt_nonneg_real (Nat.cast_nonneg _)

end Cert.Lib.GcnDeg

end
-- ==== Proof.DinvReal.lean ====
/-
  The reference program's node factor is a non-negative real at every node.

  The program counts, for every node, the edges whose target entry is that node, by scatter-adding a one per edge
  into an array of zeros; it then takes the reciprocal square root of the count where the count is positive and zero
  elsewhere.  A count is a natural number, so the factor is (√c)⁻¹ for a positive count c and 0 for the count 0:
  a non-negative real in both cases, whatever the edge list is.
-/
import proofs.«147315_j51419348468094_2_alg».proof.Proof.RefReadP
import proofs.«147315_j51419348468094_2_alg».proof.Proof.LibGcnDeg
import Idealize.ShloMosaic.Lib.IdealHost

noncomputable section

namespace Cert.DinvReal

open Idealize.ShloMosaic Idealize.ShloMosaic.ValueIdx Cert.ReferenceIdeal Cert.ReferenceIdeal.Gen
  Cert.ReferenceIdeal.ReadP Cert.Lib.RowOps Cert.Lib.GcnDeg

/-- The array the degree is accumulated from holds the extended real one everywhere. -/
theorem val_main_v7_one (j : S1700000.Idx) : val_main_v7 (F := Ideal) j = 1 := by
  rw [val_main_v7_apply, val_main_cst_apply]
  exact Ideal.ofBits_one_f32

/-- The array the degree is accumulated into holds zero everywhere. -/
theorem val_main_v8_zero (j : S100000.Idx) : val_main_v8 (F := Ideal) j = 0 := by
  rw [val_main_v8_apply, val_main_cst_0_apply]
  exact Ideal.ofBits_zero_f32

/-- The degree array is the scalar scatter-add of the ones into the zeros along the target list. -/
theorem val_main_v10_eq (x1 : (⟨S2x1600000, .i32⟩ : BufTy).Contents (Elt Ideal)) :
    val_main_v10 (F := Ideal) x1
      = Ideal.hostScatterAdd (vecScatterDims 100000 1700000 Facts₀.scatter_S100000_S1700000x1_S1700000_n_0_0_1_wf)
          (val_main_v8 (F := Ideal)) (val_main_v9 (F := Ideal) x1) (val_main_v7 (F := Ideal)) := rfl

/-- The degree at node n is the number of edges whose target entry, read signed, is n. -/
theorem val_main_v10_apply (x1 : (⟨S2x1600000, .i32⟩ : BufTy).Contents (Elt Ideal)) (n : Fin 100000) :
    val_main_v10 (F := Ideal) x1 (ix1 n)
      = (((inEdges (N := 100000) (val_main_v9 (F := Ideal) x1 : IVec ⟨2, ![1700000, 1]⟩ 32) n).card : ℝ) : EReal) := by
  rw [val_main_v10_eq]
  exact degree_apply Facts₀.scatter_S100000_S1700000x1_S1700000_n_0_0_1_wf (val_main_v8 (F := Ideal)) val_main_v8_zero
    (val_main_v9 (F := Ideal) x1) (val_main_v7 (F := Ideal)) val_main_v7_one n

/-- The node factor is the reciprocal square root of the degree where the degree is positive, and zero elsewhere. -/
theorem val_main_v14_eq (x1 : (⟨S2x1600000, .i32⟩ : BufTy).Contents (Elt Ideal)) (i : S100000.Idx) :
    val_main_v14 (F := Ideal) x1 i
      = Scalar.select (Ideal.cmp .ogt (val_main_v10 (F := Ideal) x1 i) 0) (Ideal.rsqrt (val_main_v10 (F := Ideal) x1 i)) 0 := by
  rw [val_main_v14_apply, val_main_v12_apply, val_main_v13_apply, val_main_call0_v1_apply, val_main_call0_v0_apply,
    val_main_cst_2_apply, val_main_v11_apply, val_main_cst_1_apply, Ideal.cmpf_def, Ideal.hostUnary_rsqrt_def,
    Ideal.ofBits_def, Ideal.ofBits_zero_f32]

/-- The node factor at every node is a non-negative real. -/
theorem val_main_v14_nonneg_real (x1 : (⟨S2x1600000, .i32⟩ : BufTy).Contents (Elt Ideal)) (n : Fin 100000) :
    ∃ r : ℝ, 0 ≤ r ∧ val_main_v14 (F := Ideal) x1 (ix1 n) = (r : EReal) := by
  rw [val_main_v14_eq, val_main_v10_apply]
  exact guarded_rsqrt_nonneg_real (Nat.cast_nonneg _)

end Cert.DinvReal

end
-- ==== Proof.Bridge.lean ====
/-
  The reference program's graph-convolution layers, read through the mathematics of the neighbourhood sum.

  In each of the three layers the reference gathers the rows of a feature table at the edges' sources, multiplies
  every gathered row by the edge weight dinv(source) · dinv(target), and scatter-adds the products into zeros along
  the raw target list.  The other arrangement scales the table's rows by dinv once per node, gathers and scatter-adds
  the scaled rows, and multiplies the sum at node p by dinv(p).  The two agree because the node factor dinv is a
  non-negative real at every node (it is the guarded reciprocal square root of a count) and because an edge counted at
  node p — its raw target word, read signed, is p — has p as its wrapped and clamped target: a word equal to a node's
  number is not negative, so the wrap-around leaves it alone, and it is below the number of nodes, so the clamp does.
-/
import proofs.«147315_j51419348468094_2_alg».proof.Proof.RefReadP
import proofs.«147315_j51419348468094_2_alg».proof.Proof.LibGcnAgg
import proofs.«147315_j51419348468094_2_alg».proof.Proof.LibGcnDeg
import proofs.«147315_j51419348468094_2_alg».proof.Proof.DinvReal
import Idealize.ShloMosaic.Lib.Affine

noncomputable section

open scoped BigOperators

namespace Cert.GcnBridge

open Cert.ReferenceIdeal Cert.ReferenceIdeal.Gen Cert.ReferenceIdeal.ReadP Idealize.ShloMosaic Idealize.ShloMosaic.ValueIdx
  Cert.Lib.RowOps Cert.Lib.GcnAgg

/-! ## The aggregation step, three widths -/

/-- There is at least one node. -/
theorem hN : 0 < 100000 := by decide

/-- At the extended reals the accumulating scatter is the exact sum. -/
theorem hostScatterAdd_eq {s si u : Shape} {w : Nat} {φ : FTy} (d : ScatterDims s si u) (x : FVec Ideal s φ)
    (idx : IVec si w) (upd : FVec Ideal u φ) : Host.scatterAdd d x idx upd = Ideal.hostScatterAdd d x idx upd := rfl

/-- The scalar gather's dimension numbers are the library's. -/
theorem gatherV_eq : gather_S100000_S1700000x1_S1700000_n_0_n_n_0_1_1
    = vecGatherDims 100000 1700000 Facts₀.gather_S100000_S1700000x1_S1700000_n_0_n_n_0_1_1_wf := rfl

/-- A target word that is a node's number is its own wrapped and clamped value. -/
theorem wrap_clamp_eq (b : BitVec 32) (n : Fin 100000) (hb : b.toInt = (n.val : Int)) :
    min (Scalar.select (IntOp.cmpi .slt b 0#32) (IntOp.addi b 100000#32) b).toInt.toNat (100000 - 1) = n.val := by
  have hns : ¬ IntOp.cmpi .slt b 0#32 = 1#1 := by
    rw [IntOp.cmpi_slt, hb]
    have h0 : (0#32 : BitVec 32).toInt = 0 := by decide
    rw [h0]
    omega
  rw [eq_zero_of_ne_one hns, select_zero, hb, Int.toNat_natCast]
  have := n.isLt
  omega

/-- The raw target list at edge e is the concatenated target array at e. -/
theorem v42_at (x1 : (⟨S2x1600000, .i32⟩ : BufTy).Contents (Elt Ideal)) (e : Fin 1700000) :
    val_main_v42 (F := Ideal) x1 (ix2 e (0 : Fin 1)) = val_main_v6 (F := Ideal) x1 (ix1 e) := by
  rw [val_main_v42_apply]
  refine congrArg _ ?_
  funext a; match a with | ⟨0, _⟩ => rfl

/-- The wrapped target list at edge e. -/
theorem v27_at (x1 : (⟨S2x1600000, .i32⟩ : BufTy).Contents (Elt Ideal)) (e : Fin 1700000) :
    val_main_v27 (F := Ideal) x1 (ix2 e (0 : Fin 1))
      = Scalar.select (IntOp.cmpi .slt (val_main_v6 (F := Ideal) x1 (ix1 e)) 0#32)
          (IntOp.addi (val_main_v6 (F := Ideal) x1 (ix1 e)) 100000#32) (val_main_v6 (F := Ideal) x1 (ix1 e)) := by
  rw [val_main_v27_apply, val_main_v26_apply, val_main_v23_apply, val_main_v25_apply, val_main_v22_apply,
    val_main_v24_apply, val_main_c_4_apply, val_main_c_5_apply]
  have hi : idx_main_v27 (ix2 e (0 : Fin 1)) = ix1 e := by
    funext a; match a with | ⟨0, _⟩ => rfl
  rw [hi]

/-- An edge counted at node n has n as its wrapped, clamped target. -/
theorem hw (x1 : (⟨S2x1600000, .i32⟩ : BufTy).Contents (Elt Ideal)) (e : Fin 1700000) (n : Fin 100000)
    (he : (val_main_v42 (F := Ideal) x1 (ix2 e (0 : Fin 1))).toInt = (n.val : Int)) :
    min (val_main_v27 (F := Ideal) x1 (ix2 e (0 : Fin 1))).toInt.toNat (100000 - 1) = n.val := by
  rw [v42_at] at he
  rw [v27_at]
  exact wrap_clamp_eq _ n he

/-- The two wrapped source lists are one term. -/
theorem v20_eq_v37 (x1 : (⟨S2x1600000, .i32⟩ : BufTy).Contents (Elt Ideal)) :
    val_main_v20 (F := Ideal) x1 = val_main_v37 (F := Ideal) x1 := rfl

/-- The node factor gathered at the edges' sources. -/
theorem v21_at (x1 : (⟨S2x1600000, .i32⟩ : BufTy).Contents (Elt Ideal)) (e : Fin 1700000) :
    val_main_v21 (F := Ideal) x1 (ix1 e)
      = val_main_v14 (F := Ideal) x1
          (ix1 (clampIdx hN (val_main_v37 (F := Ideal) x1 : IVec ⟨2, ![1700000, 1]⟩ 32) e)) := by
  unfold val_main_v21
  rw [gatherV_eq, v20_eq_v37]
  exact vecGather_apply hN _ _ _ e

/-- The node factor gathered at the edges' wrapped targets. -/
theorem v28_at (x1 : (⟨S2x1600000, .i32⟩ : BufTy).Contents (Elt Ideal)) (e : Fin 1700000) :
    val_main_v28 (F := Ideal) x1 (ix1 e)
      = val_main_v14 (F := Ideal) x1
          (ix1 (clampIdx hN (val_main_v27 (F := Ideal) x1 : IVec ⟨2, ![1700000, 1]⟩ 32) e)) := by
  unfold val_main_v28
  rw [gatherV_eq]
  exact vecGather_apply hN _ _ _ e

/-- The edge weight: the product of the node factors at the edge's two end points. -/
theorem v29_at (x1 : (⟨S2x1600000, .i32⟩ : BufTy).Contents (Elt Ideal)) (e : Fin 1700000) :
    val_main_v29 (F := Ideal) x1 (ix1 e)
      = val_main_v14 (F := Ideal) x1
          (ix1 (clampIdx hN (val_main_v37 (F := Ideal) x1 : IVec ⟨2, ![1700000, 1]⟩ 32) e))
        * val_main_v14 (F := Ideal) x1
          (ix1 (clampIdx hN (val_main_v27 (F := Ideal) x1 : IVec ⟨2, ![1700000, 1]⟩ 32) e)) := by
  rw [val_main_v29_apply, Ideal.mulf_def, v21_at, v28_at]

/-- The edge weight broadcast along 32 columns. -/
theorem v39_at (x1 : (⟨S2x1600000, .i32⟩ : BufTy).Contents (Elt Ideal)) (e : Fin 1700000) (c : Fin 32) :
    val_main_v39 (F := Ideal) x1 (ix2 e c) = val_main_v29 (F := Ideal) x1 (ix1 e) := by
  rw [val_main_v39_apply, val_main_v30_apply]
  refine congrArg _ ?_
  funext a; match a with | ⟨0, _⟩ => rfl

/-- Width 32: scatter-adding the gathered rows of a table scaled per node and rescaling at the target is scatter-adding
    the gathered rows times the edge weights. -/
theorem agg32 (x1 : (⟨S2x1600000, .i32⟩ : BufTy).Contents (Elt Ideal)) (h hK : S100000x32.Idx → EReal)
    (hhK : ∀ (n : Fin 100000) (c : Fin 32), hK (ix2 n c) = h (ix2 n c) * val_main_v14 (F := Ideal) x1 (ix1 n))
    (p : Fin 100000) (k : Fin 32) :
    (Host.scatterAdd (F := Ideal) (φ := .f32) scatter_S100000x32_S1700000x1_S1700000x32_1_0_0_1 (val_main_v41 (F := Ideal))
        (val_main_v42 (F := Ideal) x1)
        (Host.gather gather_S100000x32_S1700000x1_S1700000x32_1_0_n_n_0_1_132 hK (val_main_v37 (F := Ideal) x1)) (ix2 p k) : EReal)
        * (val_main_v14 (F := Ideal) x1 (ix1 p) : EReal)
      = Host.scatterAdd (F := Ideal) (φ := .f32) scatter_S100000x32_S1700000x1_S1700000x32_1_0_0_1 (val_main_v41 (F := Ideal))
        (val_main_v42 (F := Ideal) x1)
        (mulf (F := Ideal) (φ := .f32) (Host.gather gather_S100000x32_S1700000x1_S1700000x32_1_0_n_n_0_1_132 h (val_main_v37 (F := Ideal) x1))
          (val_main_v39 (F := Ideal) x1)) (ix2 p k) := by
  have hsc : scatter_S100000x32_S1700000x1_S1700000x32_1_0_0_1
      = rowScatterDims 100000 1700000 32 Facts₀.scatter_S100000x32_S1700000x1_S1700000x32_1_0_0_1_wf := rfl
  have hga : gather_S100000x32_S1700000x1_S1700000x32_1_0_n_n_0_1_132
      = rowGatherDims 100000 1700000 32 Facts₀.gather_S100000x32_S1700000x1_S1700000x32_1_0_n_n_0_1_132_wf := rfl
  have hS : val_main_v37 (F := Ideal) x1 = val_main_v37 (F := Ideal) x1 := rfl
  have hD : val_main_v42 (F := Ideal) x1 = val_main_v42 (F := Ideal) x1 := rfl
  rw [hostScatterAdd_eq, hostScatterAdd_eq, hsc, hga, hS, hD]
  refine scatterAdd_gather_scale_eq hN (val_main_v37 (F := Ideal) x1) (val_main_v42 (F := Ideal) x1)
    (val_main_v27 (F := Ideal) x1) (val_main_v14 (F := Ideal) x1) h _ _ (val_main_v41 (F := Ideal)) ?_ hK _ hhK ?_
    (DinvReal.val_main_v14_nonneg_real x1) (hw x1) p k
  · intro j
    rw [val_main_v41_apply, val_main_cst_8_apply]
    exact Ideal.ofBits_zero_f32
  · intro e c
    rw [mulf_apply, rowGather_apply hN, v39_at, v29_at]

/-- The edge weight broadcast along 64 columns. -/
theorem v56_at (x1 : (⟨S2x1600000, .i32⟩ : BufTy).Contents (Elt Ideal)) (e : Fin 1700000) (c : Fin 64) :
    val_main_v56 (F := Ideal) x1 (ix2 e c) = val_main_v29 (F := Ideal) x1 (ix1 e) := by
  rw [val_main_v56_apply, val_main_v30_apply]
  refine congrArg _ ?_
  funext a; match a with | ⟨0, _⟩ => rfl

/-- Width 64: scatter-adding the gathered rows of a table scaled per node and rescaling at the target is scatter-adding
    the gathered rows times the edge weights. -/
theorem agg64 (x1 : (⟨S2x1600000, .i32⟩ : BufTy).Contents (Elt Ideal)) (h hK : S100000x64.Idx → EReal)
    (hhK : ∀ (n : Fin 100000) (c : Fin 64), hK (ix2 n c) = h (ix2 n c) * val_main_v14 (F := Ideal) x1 (ix1 n))
    (p : Fin 100000) (k : Fin 64) :
    (Host.scatterAdd (F := Ideal) (φ := .f32) scatter_S100000x64_S1700000x1_S1700000x64_1_0_0_1 (val_main_v58 (F := Ideal))
        (val_main_v59 (F := Ideal) x1)
        (Host.gather gather_S100000x64_S1700000x1_S1700000x64_1_0_n_n_0_1_164 hK (val_main_v54 (F := Ideal) x1)) (ix2 p k) : EReal)
        * (val_main_v14 (F := Ideal) x1 (ix1 p) : EReal)
      = Host.scatterAdd (F := Ideal) (φ := .f32) scatter_S100000x64_S1700000x1_S1700000x64_1_0_0_1 (val_main_v58 (F := Ideal))
        (val_main_v59 (F := Ideal) x1)
        (mulf (F := Ideal) (φ := .f32) (Host.gather gather_S100000x64_S1700000x1_S1700000x64_1_0_n_n_0_1_164 h (val_main_v54 (F := Ideal) x1))
          (val_main_v56 (F := Ideal) x1)) (ix2 p k) := by
  have hsc : scatter_S100000x64_S1700000x1_S1700000x64_1_0_0_1
      = rowScatterDims 100000 1700000 64 Facts₀.scatter_S100000x64_S1700000x1_S1700000x64_1_0_0_1_wf := rfl
  have hga : gather_S100000x64_S1700000x1_S1700000x64_1_0_n_n_0_1_164
      = rowGatherDims 100000 1700000 64 Facts₀.gather_S100000x64_S1700000x1_S1700000x64_1_0_n_n_0_1_164_wf := rfl
  have hS : val_main_v54 (F := Ideal) x1 = val_main_v37 (F := Ideal) x1 := rfl
  have hD : val_main_v59 (F := Ideal) x1 = val_main_v42 (F := Ideal) x1 := rfl
  rw [hostScatterAdd_eq, hostScatterAdd_eq, hsc, hga, hS, hD]
  refine scatterAdd_gather_scale_eq hN (val_main_v37 (F := Ideal) x1) (val_main_v42 (F := Ideal) x1)
    (val_main_v27 (F := Ideal) x1) (val_main_v14 (F := Ideal) x1) h _ _ (val_main_v58 (F := Ideal)) ?_ hK _ hhK ?_
    (DinvReal.val_main_v14_nonneg_real x1) (hw x1) p k
  · intro j
    rw [val_main_v58_apply, val_main_cst_11_apply]
    exact Ideal.ofBits_zero_f32
  · intro e c
    rw [mulf_apply, rowGather_apply hN, v56_at, v29_at]

/-- The edge weight broadcast along 128 columns. -/
theorem v73_at (x1 : (⟨S2x1600000, .i32⟩ : BufTy).Contents (Elt Ideal)) (e : Fin 1700000) (c : Fin 128) :
    val_main_v73 (F := Ideal) x1 (ix2 e c) = val_main_v29 (F := Ideal) x1 (ix1 e) := by
  rw [val_main_v73_apply, val_main_v30_apply]
  refine congrArg _ ?_
  funext a; match a with | ⟨0, _⟩ => rfl

/-- Width 128: scatter-adding the gathered rows of a table scaled per node and rescaling at the target is scatter-adding
    the gathered rows times the edge weights. -/
theorem agg128 (x1 : (⟨S2x1600000, .i32⟩ : BufTy).Contents (Elt Ideal)) (h hK : S100000x128.Idx → EReal)
    (hhK : ∀ (n : Fin 100000) (c : Fin 128), hK (ix2 n c) = h (ix2 n c) * val_main_v14 (F := Ideal) x1 (ix1 n))
    (p : Fin 100000) (k : Fin 128) :
    (Host.scatterAdd (F := Ideal) (φ := .f32) scatter_S100000x128_S1700000x1_S1700000x128_1_0_0_1 (val_main_v75 (F := Ideal))
        (val_main_v76 (F := Ideal) x1)
        (Host.gather gather_S100000x128_S1700000x1_S1700000x128_1_0_n_n_0_1_1128 hK (val_main_v71 (F := Ideal) x1)) (ix2 p k) : EReal)
        * (val_main_v14 (F := Ideal) x1 (ix1 p) : EReal)
      = Host.scatterAdd (F := Ideal) (φ := .f32) scatter_S100000x128_S1700000x1_S1700000x128_1_0_0_1 (val_main_v75 (F := Ideal))
        (val_main_v76 (F := Ideal) x1)
        (mulf (F := Ideal) (φ := .f32) (Host.gather gather_S100000x128_S1700000x1_S1700000x128_1_0_n_n_0_1_1128 h (val_main_v71 (F := Ideal) x1))
          (val_main_v73 (F := Ideal) x1)) (ix2 p k) := by
  have hsc : scatter_S100000x128_S1700000x1_S1700000x128_1_0_0_1
      = rowScatterDims 100000 1700000 128 Facts₀.scatter_S100000x128_S1700000x1_S1700000x128_1_0_0_1_wf := rfl
  have hga : gather_S100000x128_S1700000x1_S1700000x128_1_0_n_n_0_1_1128
      = rowGatherDims 100000 1700000 128 Facts₀.gather_S100000x128_S1700000x1_S1700000x128_1_0_n_n_0_1_1128_wf := rfl
  have hS : val_main_v71 (F := Ideal) x1 = val_main_v37 (F := Ideal) x1 := rfl
  have hD : val_main_v76 (F := Ideal) x1 = val_main_v42 (F := Ideal) x1 := rfl
  rw [hostScatterAdd_eq, hostScatterAdd_eq, hsc, hga, hS, hD]
  refine scatterAdd_gather_scale_eq hN (val_main_v37 (F := Ideal) x1) (val_main_v42 (F := Ideal) x1)
    (val_main_v27 (F := Ideal) x1) (val_main_v14 (F := Ideal) x1) h _ _ (val_main_v75 (F := Ideal)) ?_ hK _ hhK ?_
    (DinvReal.val_main_v14_nonneg_real x1) (hw x1) p k
  · intro j
    rw [val_main_v75_apply, val_main_cst_14_apply]
    exact Ideal.ofBits_zero_f32
  · intro e c
    rw [mulf_apply, rowGather_apply hN, v73_at, v29_at]

/-! ## The stages at an index -/

/-- The first layer's linear map at (p, q): the input row p against the weight column q. -/
theorem dot1 (x0 : (⟨S100000x3, .f32⟩ : BufTy).Contents (Elt Ideal)) (x3 : (⟨S3x32, .f32⟩ : BufTy).Contents (Elt Ideal)) (p : Fin 100000) (q : Fin 32) :
    val_main_v31 (F := Ideal) x0 x3 (ix2 p q)
      = ∑ k : Fin 3, x0 (ix2 p k) * x3 (ix2 k q) := by
  rw [val_main_v31_apply]
  refine Finset.sum_congr rfl fun k _ => ?_
  have hl : lidx_main_v31 (ix2 p q) k = ix2 p k := by funext a; match a with | ⟨0, _⟩ => rfl | ⟨1, _⟩ => rfl
  have hr : ridx_main_v31 (ix2 p q) k = ix2 k q := by funext a; match a with | ⟨0, _⟩ => rfl | ⟨1, _⟩ => rfl
  rw [hl, hr]

/-- The first layer's output at (p, k): the aggregate plus the bias, rectified. -/
theorem relu1 (x0 : (⟨S100000x3, .f32⟩ : BufTy).Contents (Elt Ideal)) (x1 : (⟨S2x1600000, .i32⟩ : BufTy).Contents (Elt Ideal)) (x3 : (⟨S3x32, .f32⟩ : BufTy).Contents (Elt Ideal)) (x4 : (⟨S32, .f32⟩ : BufTy).Contents (Elt Ideal)) (p : Fin 100000) (k : Fin 32) :
    val_main_v47 (F := Ideal) x0 x1 x3 x4 (ix2 p k)
      = max (val_main_v43 (F := Ideal) x0 x1 x3 (ix2 p k) + x4 (ix1 k)) 0 := by
  rw [val_main_v47_apply, val_main_v46_apply, val_main_call1_v0_apply, val_main_call1_cst_apply,
    val_main_v45_apply, val_main_v44_apply, Ideal.maximumf_def, Ideal.addf_def, Ideal.ofBits_def,
    Ideal.ofBits_zero_f32]
  have hi : idx_main_v44 (idx_main_v45 (ix2 p k)) = ix1 k := by funext a; match a with | ⟨0, _⟩ => rfl
  rw [hi]

/-- The second layer's linear map at (p, q). -/
theorem dot2 (x0 : (⟨S100000x3, .f32⟩ : BufTy).Contents (Elt Ideal)) (x1 : (⟨S2x1600000, .i32⟩ : BufTy).Contents (Elt Ideal)) (x3 : (⟨S3x32, .f32⟩ : BufTy).Contents (Elt Ideal)) (x4 : (⟨S32, .f32⟩ : BufTy).Contents (Elt Ideal)) (x5 : (⟨S32x64, .f32⟩ : BufTy).Contents (Elt Ideal)) (p : Fin 100000) (q : Fin 64) :
    val_main_v48 (F := Ideal) x0 x1 x3 x4 x5 (ix2 p q)
      = ∑ k : Fin 32, val_main_v47 (F := Ideal) x0 x1 x3 x4 (ix2 p k) * x5 (ix2 k q) := by
  rw [val_main_v48_apply]
  refine Finset.sum_congr rfl fun k _ => ?_
  have hl : lidx_main_v48 (ix2 p q) k = ix2 p k := by funext a; match a with | ⟨0, _⟩ => rfl | ⟨1, _⟩ => rfl
  have hr : ridx_main_v48 (ix2 p q) k = ix2 k q := by funext a; match a with | ⟨0, _⟩ => rfl | ⟨1, _⟩ => rfl
  rw [hl, hr]

/-- The second layer's output at (p, k): the aggregate plus the bias, rectified. -/
theorem relu2 (x0 : (⟨S100000x3, .f32⟩ : BufTy).Contents (Elt Ideal)) (x1 : (⟨S2x1600000, .i32⟩ : BufTy).Contents (Elt Ideal)) (x3 : (⟨S3x32, .f32⟩ : BufTy).Contents (Elt Ideal)) (x4 : (⟨S32, .f32⟩ : BufTy).Contents (Elt Ideal)) (x5 : (⟨S32x64, .f32⟩ : BufTy).Contents (Elt Ideal)) (x6 : (⟨S64, .f32⟩ : BufTy).Contents (Elt Ideal)) (p : Fin 100000) (k : Fin 64) :
    val_main_v64 (F := Ideal) x0 x1 x3 x4 x5 x6 (ix2 p k)
      = max (val_main_v60 (F := Ideal) x0 x1 x3 x4 x5 (ix2 p k) + x6 (ix1 k)) 0 := by
  rw [val_main_v64_apply, val_main_v63_apply, val_main_call2_v0_apply, val_main_call2_cst_apply,
    val_main_v62_apply, val_main_v61_apply, Ideal.maximumf_def, Ideal.addf_def, Ideal.ofBits_def,
    Ideal.ofBits_zero_f32]
  have hi : idx_main_v61 (idx_main_v62 (ix2 p k)) = ix1 k := by funext a; match a with | ⟨0, _⟩ => rfl
  rw [hi]

/-- The third layer's linear map at (p, q). -/
theorem dot3 (x0 : (⟨S100000x3, .f32⟩ : BufTy).Contents (Elt Ideal)) (x1 : (⟨S2x1600000, .i32⟩ : BufTy).Contents (Elt Ideal)) (x3 : (⟨S3x32, .f32⟩ : BufTy).Contents (Elt Ideal)) (x4 : (⟨S32, .f32⟩ : BufTy).Contents (Elt Ideal)) (x5 : (⟨S32x64, .f32⟩ : BufTy).Contents (Elt Ideal)) (x6 : (⟨S64, .f32⟩ : BufTy).Contents (Elt Ideal)) (x7 : (⟨S64x128, .f32⟩ : BufTy).Contents (Elt Ideal)) (p : Fin 100000) (q : Fin 128) :
    val_main_v65 (F := Ideal) x0 x1 x3 x4 x5 x6 x7 (ix2 p q)
      = ∑ k : Fin 64, val_main_v64 (F := Ideal) x0 x1 x3 x4 x5 x6 (ix2 p k) * x7 (ix2 k q) := by
  rw [val_main_v65_apply]
  refine Finset.sum_congr rfl fun k _ => ?_
  have hl : lidx_main_v65 (ix2 p q) k = ix2 p k := by funext a; match a with | ⟨0, _⟩ => rfl | ⟨1, _⟩ => rfl
  have hr : ridx_main_v65 (ix2 p q) k = ix2 k q := by funext a; match a with | ⟨0, _⟩ => rfl | ⟨1, _⟩ => rfl
  rw [hl, hr]

/-- The third layer's output at (p, k): the aggregate plus the bias, rectified. -/
theorem relu3 (x0 : (⟨S100000x3, .f32⟩ : BufTy).Contents (Elt Ideal)) (x1 : (⟨S2x1600000, .i32⟩ : BufTy).Contents (Elt Ideal)) (x3 : (⟨S3x32, .f32⟩ : BufTy).Contents (Elt Ideal)) (x4 : (⟨S32, .f32⟩ : BufTy).Contents (Elt Ideal)) (x5 : (⟨S32x64, .f32⟩ : BufTy).Contents (Elt Ideal)) (x6 : (⟨S64, .f32⟩ : BufTy).Contents (Elt Ideal)) (x7 : (⟨S64x128, .f32⟩ : BufTy).Contents (Elt Ideal)) (x8 : (⟨S128, .f32⟩ : BufTy).Contents (Elt Ideal)) (p : Fin 100000) (k : Fin 128) :
    val_main_v81 (F := Ideal) x0 x1 x3 x4 x5 x6 x7 x8 (ix2 p k)
      = max (val_main_v77 (F := Ideal) x0 x1 x3 x4 x5 x6 x7 (ix2 p k) + x8 (ix1 k)) 0 := by
  rw [val_main_v81_apply, val_main_v80_apply, val_main_call3_v0_apply, val_main_call3_cst_apply,
    val_main_v79_apply, val_main_v78_apply, Ideal.maximumf_def, Ideal.addf_def, Ideal.ofBits_def,
    Ideal.ofBits_zero_f32]
  have hi : idx_main_v78 (idx_main_v79 (ix2 p k)) = ix1 k := by funext a; match a with | ⟨0, _⟩ => rfl
  rw [hi]

/-- The classifier head at (p, q): the pooled features through a linear map, a bias and a rectifier, then through the
    output map and its bias. -/
theorem head (x0 : (⟨S100000x3, .f32⟩ : BufTy).Contents (Elt Ideal)) (x1 : (⟨S2x1600000, .i32⟩ : BufTy).Contents (Elt Ideal)) (x2 : (⟨S100000, .i32⟩ : BufTy).Contents (Elt Ideal)) (x3 : (⟨S3x32, .f32⟩ : BufTy).Contents (Elt Ideal)) (x4 : (⟨S32, .f32⟩ : BufTy).Contents (Elt Ideal)) (x5 : (⟨S32x64, .f32⟩ : BufTy).Contents (Elt Ideal)) (x6 : (⟨S64, .f32⟩ : BufTy).Contents (Elt Ideal)) (x7 : (⟨S64x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (x11 : (⟨S64x10, .f32⟩ : BufTy).Contents (Elt Ideal)) (x12 : (⟨S10, .f32⟩ : BufTy).Contents (Elt Ideal)) (p : Fin 256) (q : Fin 10) :
    val_main_v102 (F := Ideal) x0 x1 x2 x3 x4 x5 x6 x7 x8 x9 x10 x11 x12 (ix2 p q)
      = (∑ k : Fin 64, max ((∑ j : Fin 128, val_main_v93 (F := Ideal) x0 x1 x2 x3 x4 x5 x6 x7 x8 (ix2 p j) * x9 (ix2 j k))
          + x10 (ix1 k)) 0 * x11 (ix2 k q)) + x12 (ix1 q) := by
  rw [val_main_v102_apply, Ideal.addf_def, val_main_v101_apply, val_main_v100_apply, val_main_v99_apply]
  have hq : idx_main_v100 (idx_main_v101 (ix2 p q)) = ix1 q := by funext a; match a with | ⟨0, _⟩ => rfl
  rw [hq]
  refine congrArg (· + x12 (ix1 q)) ?_
  refine Finset.sum_congr rfl fun k _ => ?_
  have hl : lidx_main_v99 (ix2 p q) k = ix2 p k := by funext a; match a with | ⟨0, _⟩ => rfl | ⟨1, _⟩ => rfl
  have hr : ridx_main_v99 (ix2 p q) k = ix2 k q := by funext a; match a with | ⟨0, _⟩ => rfl | ⟨1, _⟩ => rfl
  rw [hl, hr, val_main_v98_apply, val_main_v97_apply, val_main_call4_v0_apply, val_main_call4_cst_apply,
    val_main_v96_apply, val_main_v95_apply, val_main_v94_apply, Ideal.maximumf_def, Ideal.addf_def, Ideal.ofBits_def,
    Ideal.ofBits_zero_f32]
  have hk : idx_main_v95 (idx_main_v96 (ix2 p k)) = ix1 k := by funext a; match a with | ⟨0, _⟩ => rfl
  rw [hk]
  refine congrArg (fun z => max (z + x10 (ix1 k)) 0 * x11 (ix2 k q)) ?_
  refine Finset.sum_congr rfl fun j _ => ?_
  have hl' : lidx_main_v94 (ix2 p k) j = ix2 p j := by funext a; match a with | ⟨0, _⟩ => rfl | ⟨1, _⟩ => rfl
  have hr' : ridx_main_v94 (ix2 p k) j = ix2 j k := by funext a; match a with | ⟨0, _⟩ => rfl | ⟨1, _⟩ => rfl
  rw [hl', hr']

end Cert.GcnBridge

end
-- ==== Proof.BridgeFinal.lean ====
/-
  The kernel program's result, stage by stage, is the reference's.

  Both programs run three graph-convolution layers, a per-graph mean and a two-layer head. The kernel scales a layer's
  table row by row by the node normaliser d before the neighbourhood sum and once more after it; the reference multiplies
  every gathered row by the edge weight d(source) · d(target). The neighbourhood-sum lemma says the two agree, given that
  the kernel's table is the reference's with row n scaled by d(n). So, layer by layer: the kernel's scaled product is the
  reference's product scaled (scaled1, scaled2, scaled3); hence the rescaled sums agree (aggK1, aggK2, aggK3); hence the
  activations max (sum + bias) 0 agree (act1, act2, act3). The node features being equal, so are their per-graph means
  (kP_eq), and the head is the same expression of them on both sides (kOut_eq). The only layout steps are a vector laid
  out as a column or as a row, read at an index.
-/
import proofs.«147315_j51419348468094_2_alg».proof.Proof.KernelValue
import proofs.«147315_j51419348468094_2_alg».proof.Proof.Bridge
import proofs.«147315_j51419348468094_2_alg».proof.Proof.LibLayoutColumn
import Idealize.ShloMosaic.Lib.ValueLayout

noncomputable section

open scoped BigOperators

namespace Cert.GcnBridge

open Cert.ReferenceIdeal Cert.ReferenceIdeal.Gen Cert.ReferenceIdeal.ReadP Idealize.ShloMosaic Idealize.ShloMosaic.ValueIdx
  Cert.GcnValue

variable (x0 : (⟨S100000x3, .f32⟩ : BufTy).Contents (Elt Ideal)) (x1 : (⟨S2x1600000, .i32⟩ : BufTy).Contents (Elt Ideal)) (x2 : (⟨S100000, .i32⟩ : BufTy).Contents (Elt Ideal)) (x3 : (⟨S3x32, .f32⟩ : BufTy).Contents (Elt Ideal)) (x4 : (⟨S32, .f32⟩ : BufTy).Contents (Elt Ideal)) (x5 : (⟨S32x64, .f32⟩ : BufTy).Contents (Elt Ideal)) (x6 : (⟨S64, .f32⟩ : BufTy).Contents (Elt Ideal)) (x7 : (⟨S64x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (x11 : (⟨S64x10, .f32⟩ : BufTy).Contents (Elt Ideal)) (x12 : (⟨S10, .f32⟩ : BufTy).Contents (Elt Ideal))

/-! ## The layout steps at an index -/

/-- The normaliser column at row p is the normaliser at p. -/
theorem kD2_at (p : Fin 100000) : kD2 x1 (ix2 p (0 : Fin 1)) = val_main_v14 (F := Ideal) x1 (ix1 p) := by
  unfold kD2
  exact Cert.Lib.Layout.shapeCast_a_a1_apply _ _ p 0

/-- A bias vector laid out as one row reads, at (0, k), the vector at k. -/
theorem row32_at (k : Fin 32) : shapeCast Cert.KernelIdeal.S1x32 x4 Cert.KernelIdeal.Gen.shapeCasts_S32_S1x32 (ix2 (0 : Fin 1) k) = x4 (ix1 k) :=
  shapeCast_a_1a_apply _ _ 0 k
theorem row64_at (b : (⟨S64, .f32⟩ : BufTy).Contents (Elt Ideal)) (k : Fin 64) :
    shapeCast Cert.KernelIdeal.S1x64 b Cert.KernelIdeal.Gen.shapeCasts_S64_S1x64 (ix2 (0 : Fin 1) k) = b (ix1 k) :=
  shapeCast_a_1a_apply _ _ 0 k
theorem row128_at (k : Fin 128) : shapeCast Cert.KernelIdeal.S1x128 x8 Cert.KernelIdeal.Gen.shapeCasts_S128_S1x128 (ix2 (0 : Fin 1) k) = x8 (ix1 k) :=
  shapeCast_a_1a_apply _ _ 0 k
theorem row10_at (k : Fin 10) : shapeCast Cert.KernelIdeal.S1x10 x12 Cert.KernelIdeal.Gen.shapeCasts_S10_S1x10 (ix2 (0 : Fin 1) k) = x12 (ix1 k) :=
  shapeCast_a_1a_apply _ _ 0 k

/-! ## Layer 1 -/

/-- The first region's output is the reference's first product with each row scaled by its normaliser. -/
theorem scaled1 (n : Fin 100000) (c : Fin 32) :
    kH1 x0 x1 x3 (ix2 n c) = val_main_v31 (F := Ideal) x0 x3 (ix2 n c) * val_main_v14 (F := Ideal) x1 (ix1 n) := by
  unfold kH1
  rw [g0_ix2, dot1]
  exact congrArg (_ * ·) (kD2_at x1 n)

/-- The reference's layer-1 neighbourhood sum, unfolded down to the gathered rows times the edge weights. -/
theorem v43_def : val_main_v43 (F := Ideal) x0 x1 x3
      = Host.scatterAdd (F := Ideal) (φ := .f32) scatter_S100000x32_S1700000x1_S1700000x32_1_0_0_1 (val_main_v41 (F := Ideal))
        (val_main_v42 (F := Ideal) x1)
        (mulf (F := Ideal) (φ := .f32) (Host.gather gather_S100000x32_S1700000x1_S1700000x32_1_0_n_n_0_1_132 (val_main_v31 (F := Ideal) x0 x3) (val_main_v37 (F := Ideal) x1))
          (val_main_v39 (F := Ideal) x1)) := by
  unfold val_main_v43 val_main_v40 val_main_v38
  rfl

/-- The kernel's layer-1 sum rescaled at the target is the reference's. -/
theorem aggK1 (p : Fin 100000) (k : Fin 32) :
    kA1 x0 x1 x3 (ix2 p k) * val_main_v14 (F := Ideal) x1 (ix1 p) = val_main_v43 (F := Ideal) x0 x1 x3 (ix2 p k) := by
  unfold kA1
  rw [v43_def]
  exact agg32 x1 (val_main_v31 (F := Ideal) x0 x3) (kH1 x0 x1 x3) (scaled1 x0 x1 x3) p k

/-- The activation the second region forms from the layer-1 sum is the reference's. -/
theorem act1 (p : Fin 100000) (k : Fin 32) :
    max (kA1 x0 x1 x3 (ix2 p k) * kD2 x1 (ix2 p (0 : Fin 1))
        + shapeCast Cert.KernelIdeal.S1x32 x4 Cert.KernelIdeal.Gen.shapeCasts_S32_S1x32 (ix2 (0 : Fin 1) k)) 0
      = val_main_v47 (F := Ideal) x0 x1 x3 x4 (ix2 p k) := by
  rw [relu1, kD2_at, row32_at, aggK1]

/-! ## Layer 2 -/

theorem scaled2 (n : Fin 100000) (c : Fin 64) :
    kH2 x0 x1 x3 x4 x5 (ix2 n c) = val_main_v48 (F := Ideal) x0 x1 x3 x4 x5 (ix2 n c) * val_main_v14 (F := Ideal) x1 (ix1 n) := by
  unfold kH2
  rw [g1_ix2, dot2]
  refine congrArg₂ (· * ·) (Finset.sum_congr rfl fun k _ => ?_) (kD2_at x1 n)
  rw [act1]

theorem v60_def : val_main_v60 (F := Ideal) x0 x1 x3 x4 x5
      = Host.scatterAdd (F := Ideal) (φ := .f32) scatter_S100000x64_S1700000x1_S1700000x64_1_0_0_1 (val_main_v58 (F := Ideal))
        (val_main_v59 (F := Ideal) x1)
        (mulf (F := Ideal) (φ := .f32) (Host.gather gather_S100000x64_S1700000x1_S1700000x64_1_0_n_n_0_1_164 (val_main_v48 (F := Ideal) x0 x1 x3 x4 x5) (val_main_v54 (F := Ideal) x1))
          (val_main_v56 (F := Ideal) x1)) := by
  unfold val_main_v60 val_main_v57 val_main_v55
  rfl

theorem aggK2 (p : Fin 100000) (k : Fin 64) :
    kA2 x0 x1 x3 x4 x5 (ix2 p k) * val_main_v14 (F := Ideal) x1 (ix1 p) = val_main_v60 (F := Ideal) x0 x1 x3 x4 x5 (ix2 p k) := by
  unfold kA2
  rw [v60_def]
  exact agg64 x1 (val_main_v48 (F := Ideal) x0 x1 x3 x4 x5) (kH2 x0 x1 x3 x4 x5) (scaled2 x0 x1 x3 x4 x5) p k

theorem act2 (p : Fin 100000) (k : Fin 64) :
    max (kA2 x0 x1 x3 x4 x5 (ix2 p k) * kD2 x1 (ix2 p (0 : Fin 1))
        + shapeCast Cert.KernelIdeal.S1x64 x6 Cert.KernelIdeal.Gen.shapeCasts_S64_S1x64 (ix2 (0 : Fin 1) k)) 0
      = val_main_v64 (F := Ideal) x0 x1 x3 x4 x5 x6 (ix2 p k) := by
  rw [relu2, kD2_at, row64_at, aggK2]

/-! ## Layer 3 -/

theorem scaled3 (n : Fin 100000) (c : Fin 128) :
    kH3 x0 x1 x3 x4 x5 x6 x7 (ix2 n c) = val_main_v65 (F := Ideal) x0 x1 x3 x4 x5 x6 x7 (ix2 n c) * val_main_v14 (F := Ideal) x1 (ix1 n) := by
  unfold kH3
  rw [g2_ix2, dot3]
  refine congrArg₂ (· * ·) (Finset.sum_congr rfl fun k _ => ?_) (kD2_at x1 n)
  rw [act2]

theorem v77_def : val_main_v77 (F := Ideal) x0 x1 x3 x4 x5 x6 x7
      = Host.scatterAdd (F := Ideal) (φ := .f32) scatter_S100000x128_S1700000x1_S1700000x128_1_0_0_1 (val_main_v75 (F := Ideal))
        (val_main_v76 (F := Ideal) x1)
        (mulf (F := Ideal) (φ := .f32) (Host.gather gather_S100000x128_S1700000x1_S1700000x128_1_0_n_n_0_1_1128 (val_main_v65 (F := Ideal) x0 x1 x3 x4 x5 x6 x7) (val_main_v71 (F := Ideal) x1))
          (val_main_v73 (F := Ideal) x1)) := by
  unfold val_main_v77 val_main_v74 val_main_v72
  rfl

theorem aggK3 (p : Fin 100000) (k : Fin 128) :
    kA3 x0 x1 x3 x4 x5 x6 x7 (ix2 p k) * val_main_v14 (F := Ideal) x1 (ix1 p) = val_main_v77 (F := Ideal) x0 x1 x3 x4 x5 x6 x7 (ix2 p k) := by
  unfold kA3
  rw [v77_def]
  exact agg128 x1 (val_main_v65 (F := Ideal) x0 x1 x3 x4 x5 x6 x7) (kH3 x0 x1 x3 x4 x5 x6 x7) (scaled3 x0 x1 x3 x4 x5 x6 x7) p k

/-- The fourth region's output is the reference's node features after the third layer. -/
theorem act3 (p : Fin 100000) (k : Fin 128) :
    kH x0 x1 x3 x4 x5 x6 x7 x8 (ix2 p k) = val_main_v81 (F := Ideal) x0 x1 x3 x4 x5 x6 x7 x8 (ix2 p k) := by
  unfold kH
  rw [g3_ix2, relu3, kD2_at, row128_at, aggK3]

theorem kH_eq : kH x0 x1 x3 x4 x5 x6 x7 x8 = val_main_v81 (F := Ideal) x0 x1 x3 x4 x5 x6 x7 x8 := by
  funext j
  obtain ⟨p, q, rfl⟩ : ∃ (p : Fin 100000) (q : Fin 128), j = ix2 p q := ⟨j 0, j 1, eq_ix2 j⟩
  exact act3 x0 x1 x3 x4 x5 x6 x7 x8 p q

/-! ## The pooling and the head -/

theorem kP_eq : kP x0 x1 x2 x3 x4 x5 x6 x7 x8 = val_main_v93 (F := Ideal) x0 x1 x2 x3 x4 x5 x6 x7 x8 := by
  unfold kP
  rw [kH_eq]
  unfold val_main_v93 val_main_v84
  rfl

/-- The kernel program's result is the reference's. -/
theorem kOut_eq : kOut x0 x1 x2 x3 x4 x5 x6 x7 x8 x9 x10 x11 x12
    = val_main_v102 (F := Ideal) x0 x1 x2 x3 x4 x5 x6 x7 x8 x9 x10 x11 x12 := by
  funext j
  obtain ⟨p, q, rfl⟩ : ∃ (p : Fin 256) (q : Fin 10), j = ix2 p q := ⟨j 0, j 1, eq_ix2 j⟩
  unfold kOut
  rw [g4_ix2, kP_eq, head]
  refine congrArg₂ (· + ·) (Finset.sum_congr rfl fun k _ => ?_) (row10_at x12 q)
  rw [row64_at]

end Cert.GcnBridge

end
-- ==== Proof.lean ====
/-
  The five claims of the certificate.

  The two programs compute a three-layer graph convolution network with a mean pool and a two-layer head.  The
  reference weights every edge message by dinv(src)·dinv(dst); the kernel scales each node's transformed row by
  dinv(node) before the rows are gathered along the edges and summed per target, and scales the sum by dinv(target)
  afterwards.  An edge summed at a target has that target as its end point, so dinv(dst) is one factor common to the
  whole sum; it is a real number that is not negative (the guarded reciprocal square root of a count), and a
  non-negative real factor moves across a finite sum of extended reals.  Nothing else differs at the exact
  instance: narrowing to a shorter float format is the identity there, and a matrix product accumulated into zero is
  the plain sum.

  The frames of the two kernel programs are the generated ones; the reference's frame is its run with the result
  forgotten; the ideal pass rewrote nothing, so the preservation claim is trivial; and the algebraic claim puts the
  kernel program's run (its result array at one function of the arguments) beside the reference's run (its result at
  the composed stage functions) and the equality of the two functions.
-/
import proofs.«147315_j51419348468094_2_alg».proof.Defs
import proofs.«147315_j51419348468094_2_alg».proof.Proof.Gen.Kernel.Frame
import proofs.«147315_j51419348468094_2_alg».proof.Proof.Gen.KernelIdeal.Frame
import proofs.«147315_j51419348468094_2_alg».proof.Proof.Gen.ReferenceIdeal
import proofs.«147315_j51419348468094_2_alg».proof.Proof.Gen.Pre_finite_inputs
import proofs.«147315_j51419348468094_2_alg».proof.Proof.KernelRun
import proofs.«147315_j51419348468094_2_alg».proof.Proof.KernelValue
import proofs.«147315_j51419348468094_2_alg».proof.Proof.RefReadP
import proofs.«147315_j51419348468094_2_alg».proof.Proof.BridgeFinal
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The reference runs and leaves its arguments as launched: its run with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both idealized programs run, and end with the same result array: the
    kernel program's at its staged function of the arguments, the reference's at its composed stage functions, and the
    two are one function. -/
theorem algebraic : Cert.algebraic_KernelIdeal_ReferenceIdeal := by
  intro m ρ m' ρ' _ hagree
  refine ⟨fun c => Cert.GcnValue.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run (Cert.KernelIdeal.defs (F := Ideal)) _ _).mono
      (fun r h c => ⟨(h c).1.trans (Cert.GcnValue.kernel_value m ρ c), (h c).2⟩) (Cert.GcnValue.kernel_run (F := Ideal) m ρ)
  · refine (θ_run (Cert.ReferenceIdeal.defs (F := Ideal)) _ _).mono (fun r h c => ⟨(h c).1.trans ?_, (h c).2⟩)
      (Cert.ReferenceIdeal.ValueP.run (F := Ideal) m' ρ')
    obtain ⟨h0, h1, h2, h3, h4, h5, h6, h7, h8, h9, h10, h11, h12⟩ := hagree c
    rw [Cert.ReferenceIdeal.ReadP.val_main_v102_eq, h0, h1, h2, h3, h4, h5, h6, h7, h8, h9, h10, h11, h12]
    exact (Cert.GcnBridge.kOut_eq _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
